-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S8192x8192 : Shape := ⟨2, ![8192, 8192]⟩

abbrev nBuf : Space → Nat
  | .hbm => 6
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x1, .f32⟩
  | .hbm, ⟨5, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1, .f32⟩
  | .local _ .vmem, ⟨13, _⟩ => ⟨S1024x1, .f32⟩
  | .local _ .vmem, ⟨14, _⟩ => ⟨S1024x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.KPass2.lean ====
/-
  The second pass as a pipeline region. At grid point t = (i, j) the body is handed three blocks — rows 1024 i … of the
  left operand, rows 1024 j … of the right operand, and the column of the first pass's results for rows 1024 i … — and
  writes one 1024 × 1024 block of the result: the exponential of the block's scores less the row's recorded value. It
  keeps nothing between points, so the region's proof data name each output block as that one function of the three
  input blocks, and the invariant is only the buffers the region does not use.
-/
import proofs.«152099_j38809324487097_1_alg».proof.Proof.Gen.Kernel.Launch
import proofs.«152099_j38809324487097_1_alg».proof.Proof.Gen.Kernel.Skeleton
import proofs.«152099_j38809324487097_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rSq : Rect S1024x1024 := Rect.unit (s := S1024x1024) ![0, 0] S1024x1024.size inb_S1024x1024_S1024x1024_0_0
abbrev rCol : Rect S1024x1 := Rect.unit (s := S1024x1) ![0, 0] S1024x1.size inb_S1024x1_S1024x1_0_0

/-- The output block after the body, from the three input blocks: its one store, of the exponentials. -/
def out1_3 (x0 x1 : Vec F S1024x1024 .bf16) (x2 : Vec F S1024x1 .f32) : Vec F S1024x1024 .f32 :=
  View.canon [⟨rSq, k1_pay1 (View.ld x0 rSq) (View.ld x1 rSq) (View.ld x2 rCol)⟩]

/-- The one store covers the block. -/
theorem cover1_3 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

set_option maxHeartbeats 1000000 in
/-- The body on whole staging buffers, the inputs' at their contents and the output's at anything, runs to the end holding
    the inputs' as they were and the output's at the exponentials of the inputs. -/
theorem sound_kernel1 (c : Dev nD) (E : Set ℕ) (i : grid1.Coords) (arg2 : Memref sig .tc .vmem S1024x1024 .bf16) (harg2 : arg2.IsWhole)
    (arg3 : Memref sig .tc .vmem S1024x1024 .bf16) (harg3 : arg3.IsWhole) (arg4 : Memref sig .tc .vmem S1024x1 .f32) (harg4 : arg4.IsWhole)
    (arg5 : Memref sig .tc .vmem S1024x1024 .f32) (harg5 : arg5.IsWhole)
    (x0 x1 : Vec F S1024x1024 .bf16) (x2 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__softmax_kernel i arg2 harg2 arg3 harg3 arg4 harg4 arg5 harg5) K := by
  simp only [cc1__softmax_kernel_eq_skeleton]; unfold cc1__softmax_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data: the arrays as the region finds them; after the body each input's buffer at its block and the
    output's at the exponentials of the three input blocks; the invariant the buffers the region leaves alone. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Pass2

end
-- ==== Proof.KPass1.lean ====
/-
  The first pass as a pipeline region: what its three control cases share.

  At grid point t = (i, j) (t = 8 i + j) the body is handed rows 1024 i … of the left operand and rows 1024 j … of the right
  one. It keeps a running maximum and a running sum for its 1024 rows in two buffers of its own, which live across the
  eight points of a row tile: at j = 0 it first resets them (to −∞ and 0), at every j it folds the tile's scores in, and at
  j = 7 it also writes maximum + log sum into the output column's block, which is written back there and nowhere else.
  So the body has three cases — j = 0, 0 < j < 7, j = 7 — decided by two conditions on the grid position, stated here in
  closed form over the 64 points, with the facts about where the output window is idle and where it is written back.
-/
import proofs.«152099_j38809324487097_1_alg».proof.Proof.Gen.Kernel.Launch
import proofs.«152099_j38809324487097_1_alg».proof.Proof.Gen.Kernel.Skeleton
import proofs.«152099_j38809324487097_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two conditions on the grid position -/

/-- "This is the first column tile": the condition of the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column tile": the condition of the final store. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle, and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column tile the body stores nothing into the output block, and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column tile it stores the block. -/
theorem liveAt0_2 : ∀ t : Fin cfg0.N, cond0_1 (grid0.coords t) → cfg0.idle 2 (grid0.coords t) = false := by decide +kernel

/-! ## The buffers the body is called on -/

/-- One staging buffer of the output window, through which its contents are stated. -/
abbrev VO2 : View sig .tc .vmem S1024x1 .f32 := (Memref.whole cc0_stg2_0 : Memref sig .tc .vmem S1024x1 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The running maximum's and the running sum's buffers. -/
abbrev scM0 : Memref sig .tc .vmem S1024x1 .f32 := Memref.whole cc0_scratch0
abbrev scM1 : Memref sig .tc .vmem S1024x1 .f32 := Memref.whole cc0_scratch1
abbrev VS0 : View sig .tc .vmem S1024x1 .f32 := scM0.view
abbrev VS1 : View sig .tc .vmem S1024x1 .f32 := scM1.view

/-- The second pass's staging buffers, which this region leaves alone: each whole at some contents. -/
abbrev restBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant of a region that keeps nothing: the two running buffers at anything, the second pass's staging buffers
    at anything, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ restBufs c) ∗ (∃ r, prngReg c r)) := by
  unfold Pipeline.ΦA; rw [scopedRest0_eq]; simp only [scM0, scM1, owns_whole]; try rfl

end Cert.Kernel.Pass1

end
-- ==== Proof.KRunA.lean ====
/-
  The first pass's body run whole in the case of the first column tile (the reset, then the fold; no final store): on whole buffers, the two input blocks at their contents, the
  body runs to the end holding the inputs as they were and each buffer it stored into with its stores written, last first.
  The stores are found by running the body; what they amount to is read back elsewhere.
-/
import proofs.«152099_j38809324487097_1_alg».proof.Proof.Gen.Kernel.Launch
import proofs.«152099_j38809324487097_1_alg».proof.Proof.Gen.Kernel.Skeleton
import proofs.«152099_j38809324487097_1_alg».proof.Proof.Gen.Kernel.Points
import proofs.«152099_j38809324487097_1_alg».proof.Proof.KPass1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- First column tile: the output block is handed back untouched; the two running buffers, found at anything, end with the
    stores of the reset and of the fold. -/
noncomputable def kernelRun0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 x1 : Vec F S1024x1024 .bf16) :
    Σ' (L2 : List (View.Piece (Elt F) S1024x1 .f32)) (LS0 : List (View.Piece (Elt F) S1024x1 .f32)), { LS1 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨[], ?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Pass1

end
-- ==== Proof.KRunB.lean ====
/-
  The first pass's body run whole in the case of a middle column tile (the fold alone): on whole buffers, the two input blocks at their contents, the
  body runs to the end holding the inputs as they were and each buffer it stored into with its stores written, last first.
  The stores are found by running the body; what they amount to is read back elsewhere.
-/
import proofs.«152099_j38809324487097_1_alg».proof.Proof.Gen.Kernel.Launch
import proofs.«152099_j38809324487097_1_alg».proof.Proof.Gen.Kernel.Skeleton
import proofs.«152099_j38809324487097_1_alg».proof.Proof.Gen.Kernel.Points
import proofs.«152099_j38809324487097_1_alg».proof.Proof.KPass1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- A middle column tile: the output block is handed back untouched; the two running buffers, found at what the point
    before left, end with the fold's stores. -/
noncomputable def kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 x1 : Vec F S1024x1024 .bf16) (xs0 xs1 : Vec F S1024x1 .f32) :
    Σ' (L2 : List (View.Piece (Elt F) S1024x1 .f32)) (LS0 : List (View.Piece (Elt F) S1024x1 .f32)), { LS1 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨[], ?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Pass1

end
-- ==== Proof.KRunC.lean ====
/-
  The first pass's body run whole in the case of the last column tile (the fold, then the final store): on whole buffers, the two input blocks at their contents, the
  body runs to the end holding the inputs as they were and each buffer it stored into with its stores written, last first.
  The stores are found by running the body; what they amount to is read back elsewhere.
-/
import proofs.«152099_j38809324487097_1_alg».proof.Proof.Gen.Kernel.Launch
import proofs.«152099_j38809324487097_1_alg».proof.Proof.Gen.Kernel.Skeleton
import proofs.«152099_j38809324487097_1_alg».proof.Proof.Gen.Kernel.Points
import proofs.«152099_j38809324487097_1_alg».proof.Proof.KPass1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The last column tile: the two running buffers, found at what the point before left, end with the fold's stores, and
    the output block, found at anything, with the final store. -/
noncomputable def kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 x1 : Vec F S1024x1024 .bf16) (xs0 xs1 : Vec F S1024x1 .f32) :
    Σ' (L2 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Pass1

end
-- ==== Proof.KData1.lean ====
/-
  The first pass's proof data. What each case's run leaves in the two running buffers (and, in the last-tile case, in the
  output block) is read back through the stores the run found; point by point the buffers' contents follow by recursion
  on the point, a first-tile point starting afresh and every other point continuing from what the point before left. The
  region's invariant names those contents: before the first point the two buffers hold anything; after point n they
  hold what point n left. The output block is live only at a row tile's last point, where it is written back.
-/
import proofs.«152099_j38809324487097_1_alg».proof.Proof.Gen.Kernel.Launch
import proofs.«152099_j38809324487097_1_alg».proof.Proof.Gen.Kernel.Skeleton
import proofs.«152099_j38809324487097_1_alg».proof.Proof.Gen.Kernel.Points
import proofs.«152099_j38809324487097_1_alg».proof.Proof.KRunA
import proofs.«152099_j38809324487097_1_alg».proof.Proof.KRunB
import proofs.«152099_j38809324487097_1_alg».proof.Proof.KRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves, read back through its stores -/

section Pieces
variable (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole)

theorem scoverA_0 (hc0 : cond0_0 i) (hc1 : ¬cond0_1 i) (x0 x1 : Vec F S1024x1024 .bf16) (y : S1024x1.Idx) :
    ∃ pc ∈ (kernelRun0_A c i arg2 harg2 arg3 harg3 arg4 harg4 arg5 harg5 arg6 harg6 hc0 hc1 x0 x1).2.1, y ∈ pc.1.set :=
  View.cover_of_tiledL _ S1024x1.size (by sl_kernel_rfl) y
theorem scoverA_1 (hc0 : cond0_0 i) (hc1 : ¬cond0_1 i) (x0 x1 : Vec F S1024x1024 .bf16) (y : S1024x1.Idx) :
    ∃ pc ∈ (kernelRun0_A c i arg2 harg2 arg3 harg3 arg4 harg4 arg5 harg5 arg6 harg6 hc0 hc1 x0 x1).2.2.1, y ∈ pc.1.set :=
  View.cover_of_tiledL _ S1024x1.size (by sl_kernel_rfl) y
theorem scoverB_0 (hc0 : ¬cond0_0 i) (hc1 : ¬cond0_1 i) (x0 x1 : Vec F S1024x1024 .bf16) (xs0 xs1 : Vec F S1024x1 .f32) (y : S1024x1.Idx) :
    ∃ pc ∈ (kernelRun0_B c i arg2 harg2 arg3 harg3 arg4 harg4 arg5 harg5 arg6 harg6 hc0 hc1 x0 x1 xs0 xs1).2.1, y ∈ pc.1.set :=
  View.cover_of_tiledL _ S1024x1.size (by sl_kernel_rfl) y
theorem scoverB_1 (hc0 : ¬cond0_0 i) (hc1 : ¬cond0_1 i) (x0 x1 : Vec F S1024x1024 .bf16) (xs0 xs1 : Vec F S1024x1 .f32) (y : S1024x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL _ S1024x1.size (by sl_kernel_rfl) y
theorem scoverC_0 (hc0 : ¬cond0_0 i) (hc1 : cond0_1 i) (x0 x1 : Vec F S1024x1024 .bf16) (xs0 xs1 : Vec F S1024x1 .f32) (y : S1024x1.Idx) :
    ∃ pc ∈ (kernelRun0_C c i arg2 harg2 arg3 harg3 arg4 harg4 arg5 harg5 arg6 harg6 hc0 hc1 x0 x1 xs0 xs1).2.1, y ∈ pc.1.set :=
  View.cover_of_tiledL _ S1024x1.size (by sl_kernel_rfl) y
theorem scoverC_1 (hc0 : ¬cond0_0 i) (hc1 : cond0_1 i) (x0 x1 : Vec F S1024x1024 .bf16) (xs0 xs1 : Vec F S1024x1 .f32) (y : S1024x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL _ S1024x1.size (by sl_kernel_rfl) y
theorem coverC_2 (hc0 : ¬cond0_0 i) (hc1 : cond0_1 i) (x0 x1 : Vec F S1024x1024 .bf16) (xs0 xs1 : Vec F S1024x1 .f32) (y : S1024x1.Idx) :
    ∃ pc ∈ (kernelRun0_C c i arg2 harg2 arg3 harg3 arg4 harg4 arg5 harg5 arg6 harg6 hc0 hc1 x0 x1 xs0 xs1).1, y ∈ pc.1.set :=
  View.cover_of_tiledL _ S1024x1.size (by sl_kernel_rfl) y

/-- What a case leaves: (the output block, the running maximum's buffer, the running sum's buffer). Where a case stores
    nothing into the output block the first component is a placeholder nothing consults. -/
def leftA (hc0 : cond0_0 i) (hc1 : ¬cond0_1 i) (x0 x1 : Vec F S1024x1024 .bf16) : Vec F S1024x1 .f32 × Vec F S1024x1 .f32 × Vec F S1024x1 .f32 :=
  (VO2.read (Elt F) (VO2.writes (Elt F) VO2.junk (kernelRun0_A c i arg2 harg2 arg3 harg3 arg4 harg4 arg5 harg5 arg6 harg6 hc0 hc1 x0 x1).1),
   VS0.read (Elt F) (VS0.writes (Elt F) VS0.junk (kernelRun0_A c i arg2 harg2 arg3 harg3 arg4 harg4 arg5 harg5 arg6 harg6 hc0 hc1 x0 x1).2.1),
   VS1.read (Elt F) (VS1.writes (Elt F) VS1.junk (kernelRun0_A c i arg2 harg2 arg3 harg3 arg4 harg4 arg5 harg5 arg6 harg6 hc0 hc1 x0 x1).2.2.1))
def leftB (hc0 : ¬cond0_0 i) (hc1 : ¬cond0_1 i) (x0 x1 : Vec F S1024x1024 .bf16) (xs0 xs1 : Vec F S1024x1 .f32) : Vec F S1024x1 .f32 × Vec F S1024x1 .f32 × Vec F S1024x1 .f32 :=
  (VO2.read (Elt F) (VO2.writes (Elt F) VO2.junk (kernelRun0_B c i arg2 harg2 arg3 harg3 arg4 harg4 arg5 harg5 arg6 harg6 hc0 hc1 x0 x1 xs0 xs1).1),
   VS0.read (Elt F) (VS0.writes (Elt F) VS0.junk (kernelRun0_B c i arg2 harg2 arg3 harg3 arg4 harg4 arg5 harg5 arg6 harg6 hc0 hc1 x0 x1 xs0 xs1).2.1),
   VS1.read (Elt F) (VS1.writes (Elt F) VS1.junk (kernelRun0_B c i arg2 harg2 arg3 harg3 arg4 harg4 arg5 harg5 arg6 harg6 hc0 hc1 x0 x1 xs0 xs1).2.2.1))
def leftC (hc0 : ¬cond0_0 i) (hc1 : cond0_1 i) (x0 x1 : Vec F S1024x1024 .bf16) (xs0 xs1 : Vec F S1024x1 .f32) : Vec F S1024x1 .f32 × Vec F S1024x1 .f32 × Vec F S1024x1 .f32 :=
  (VO2.read (Elt F) (VO2.writes (Elt F) VO2.junk (kernelRun0_C c i arg2 harg2 arg3 harg3 arg4 harg4 arg5 harg5 arg6 harg6 hc0 hc1 x0 x1 xs0 xs1).1),
   VS0.read (Elt F) (VS0.writes (Elt F) VS0.junk (kernelRun0_C c i arg2 harg2 arg3 harg3 arg4 harg4 arg5 harg5 arg6 harg6 hc0 hc1 x0 x1 xs0 xs1).2.1),
   VS1.read (Elt F) (VS1.writes (Elt F) VS1.junk (kernelRun0_C c i arg2 harg2 arg3 harg3 arg4 harg4 arg5 harg5 arg6 harg6 hc0 hc1 x0 x1 xs0 xs1).2.2.1))

end Pieces

section Region
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Any vector of the running buffers' shape (for "before the first point"). -/
def anyCol : Vec F S1024x1 .f32 := VS0.read (Elt F) VS0.junk

/-- What point t leaves, given what the point before left in the two running buffers: the case the position selects. -/
def stepAt (c : Dev nD) (t : Fin cfg0.N) (prev : Vec F S1024x1 .f32 × Vec F S1024x1 .f32) : Vec F S1024x1 .f32 × Vec F S1024x1 .f32 × Vec F S1024x1 .f32 :=
  if h0 : t.val % 8 = 0 then
    leftA c (grid0.coords t) (ms0_0 t) (hs0_0 t) (ms0_1 t) (hs0_1 t) (ms0_2 t) (hs0_2 t) scM0 (Memref.isWhole_whole _) scM1 (Memref.isWhole_whole _) ((hcond0_0 t).mpr h0) (fun h => by have := (hcond0_1 t).mp h; omega) (iblk0 V c 0 t) (iblk0 V c 1 t)
  else if h1 : t.val % 8 = 7 then
    leftC c (grid0.coords t) (ms0_0 t) (hs0_0 t) (ms0_1 t) (hs0_1 t) (ms0_2 t) (hs0_2 t) scM0 (Memref.isWhole_whole _) scM1 (Memref.isWhole_whole _) (fun h => h0 ((hcond0_0 t).mp h)) ((hcond0_1 t).mpr h1) (iblk0 V c 0 t) (iblk0 V c 1 t) prev.1 prev.2
  else
    leftB c (grid0.coords t) (ms0_0 t) (hs0_0 t) (ms0_1 t) (hs0_1 t) (ms0_2 t) (hs0_2 t) scM0 (Memref.isWhole_whole _) scM1 (Memref.isWhole_whole _) (fun h => h0 ((hcond0_0 t).mp h)) (fun h => h1 ((hcond0_1 t).mp h)) (iblk0 V c 0 t) (iblk0 V c 1 t) prev.1 prev.2

theorem stepAt_A (c : Dev nD) (t : Fin cfg0.N) (prev) (h0 : t.val % 8 = 0) (hc1 : ¬cond0_1 (grid0.coords t)) :
    stepAt V c t prev = leftA c (grid0.coords t) (ms0_0 t) (hs0_0 t) (ms0_1 t) (hs0_1 t) (ms0_2 t) (hs0_2 t) scM0 (Memref.isWhole_whole _) scM1 (Memref.isWhole_whole _) ((hcond0_0 t).mpr h0) hc1 (iblk0 V c 0 t) (iblk0 V c 1 t) := by
  unfold stepAt; rw [dif_pos h0]
theorem stepAt_B (c : Dev nD) (t : Fin cfg0.N) (prev) (h0 : ¬t.val % 8 = 0) (h1 : ¬t.val % 8 = 7) :
    stepAt V c t prev = leftB c (grid0.coords t) (ms0_0 t) (hs0_0 t) (ms0_1 t) (hs0_1 t) (ms0_2 t) (hs0_2 t) scM0 (Memref.isWhole_whole _) scM1 (Memref.isWhole_whole _) (fun h => h0 ((hcond0_0 t).mp h)) (fun h => h1 ((hcond0_1 t).mp h)) (iblk0 V c 0 t) (iblk0 V c 1 t) prev.1 prev.2 := by
  unfold stepAt; rw [dif_neg h0, dif_neg h1]
theorem stepAt_C (c : Dev nD) (t : Fin cfg0.N) (prev) (h0 : ¬t.val % 8 = 0) (h1 : t.val % 8 = 7) :
    stepAt V c t prev = leftC c (grid0.coords t) (ms0_0 t) (hs0_0 t) (ms0_1 t) (hs0_1 t) (ms0_2 t) (hs0_2 t) scM0 (Memref.isWhole_whole _) scM1 (Memref.isWhole_whole _) (fun h => h0 ((hcond0_0 t).mp h)) ((hcond0_1 t).mpr h1) (iblk0 V c 0 t) (iblk0 V c 1 t) prev.1 prev.2 := by
  unfold stepAt; rw [dif_neg h0, dif_pos h1]

/-- THE ACCUMULATION: what the output block and the two running buffers hold after the body at position n. -/
def outsAt0 (c : Dev nD) : (n : ℕ) → n < cfg0.N → Vec F S1024x1 .f32 × Vec F S1024x1 .f32 × Vec F S1024x1 .f32
  | 0, hn => stepAt V c ⟨0, hn⟩ (anyCol, anyCol)
  | n + 1, hn => stepAt V c ⟨n + 1, hn⟩ (outsAt0 c n (Nat.lt_of_succ_lt hn)).2

theorem outsAt0_zero (c : Dev nD) (hn : 0 < cfg0.N) : outsAt0 V c 0 hn = stepAt V c ⟨0, hn⟩ (anyCol, anyCol) := rfl
theorem outsAt0_succ (c : Dev nD) (n : ℕ) (hn : n + 1 < cfg0.N) :
    outsAt0 V c (n + 1) hn = stepAt V c ⟨n + 1, hn⟩ (outsAt0 V c n (Nat.lt_of_succ_lt hn)).2 := rfl
/-- At a point that is not the first, the point continues from what the point before left. -/
theorem outsAt0_pos (c : Dev nD) (t : Fin cfg0.N) (hz : t.val ≠ 0) :
    outsAt0 V c t.val t.isLt = stepAt V c t (outsAt0 V c (t.val - 1) (Nat.lt_of_le_of_lt (Nat.sub_le _ _) t.isLt)).2 := by
  obtain ⟨n, hn⟩ := t
  cases n with
  | zero => exact absurd rfl hz
  | succ n => rfl

/-- The region's invariant before position n: before the first point the two running buffers at anything; afterwards at
    what the point before left; beside them the second pass's staging buffers and the generator register, untouched. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.1) ∗ owns (c : Thread nD τ) scM1 fullShare ((outsAt0 V c n hn).2.2) ∗ restBufs c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.1) ∗ owns (c : Thread nD τ) scM1 fullShare ((outsAt0 V c n hn).2.2) ∗ restBufs c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.1) ∗ owns (c : Thread nD τ) scM1 fullShare ((outsAt0 V c (n - 1) (by omega)).2.2) ∗ restBufs c) ∗ (∃ r, prngReg c r)) := by
  cases n with
  | zero => exact absurd rfl hz
  | succ n => rfl

/-- The region's proof data. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.Kernel.Pass1

end
-- ==== Proof.KBody1.lean ====
/-
  The first pass's body obligation: at every grid point the body, called on the current staging buffers and handed the
  two running buffers by the region's invariant, runs to the end and gives everything back — the running buffers at the
  contents the invariant names for the next point, the output block stored only at a row tile's last column tile.
-/
import proofs.«152099_j38809324487097_1_alg».proof.Proof.Gen.Kernel.Launch
import proofs.«152099_j38809324487097_1_alg».proof.Proof.Gen.Kernel.Skeleton
import proofs.«152099_j38809324487097_1_alg».proof.Proof.Gen.Kernel.Points
import proofs.«152099_j38809324487097_1_alg».proof.Proof.KData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

theorem outsAt0_A (c : Dev nD) (t : Fin cfg0.N) (h0 : t.val % 8 = 0) (hc1 : ¬cond0_1 (grid0.coords t)) :
    outsAt0 V c t.val t.isLt = leftA c (grid0.coords t) (ms0_0 t) (hs0_0 t) (ms0_1 t) (hs0_1 t) (ms0_2 t) (hs0_2 t) scM0 (Memref.isWhole_whole _) scM1 (Memref.isWhole_whole _) ((hcond0_0 t).mpr h0) hc1 (iblk0 V c 0 t) (iblk0 V c 1 t) := by
  obtain ⟨n, hn⟩ := t
  cases n with
  | zero => exact stepAt_A V c ⟨0, hn⟩ _ h0 hc1
  | succ n => exact stepAt_A V c ⟨n + 1, hn⟩ _ h0 hc1
theorem outsAt0_B (c : Dev nD) (t : Fin cfg0.N) (h0 : ¬t.val % 8 = 0) (h1 : ¬t.val % 8 = 7) :
    outsAt0 V c t.val t.isLt = leftB c (grid0.coords t) (ms0_0 t) (hs0_0 t) (ms0_1 t) (hs0_1 t) (ms0_2 t) (hs0_2 t) scM0 (Memref.isWhole_whole _) scM1 (Memref.isWhole_whole _) (fun h => h0 ((hcond0_0 t).mp h)) (fun h => h1 ((hcond0_1 t).mp h)) (iblk0 V c 0 t) (iblk0 V c 1 t)
      (outsAt0 V c (t.val - 1) (Nat.lt_of_le_of_lt (Nat.sub_le _ _) t.isLt)).2.1 (outsAt0 V c (t.val - 1) (Nat.lt_of_le_of_lt (Nat.sub_le _ _) t.isLt)).2.2 :=
  (outsAt0_pos V c t (by omega)).trans (stepAt_B V c t _ h0 h1)
theorem outsAt0_C (c : Dev nD) (t : Fin cfg0.N) (h0 : ¬t.val % 8 = 0) (h1 : t.val % 8 = 7) :
    outsAt0 V c t.val t.isLt = leftC c (grid0.coords t) (ms0_0 t) (hs0_0 t) (ms0_1 t) (hs0_1 t) (ms0_2 t) (hs0_2 t) scM0 (Memref.isWhole_whole _) scM1 (Memref.isWhole_whole _) (fun h => h0 ((hcond0_0 t).mp h)) ((hcond0_1 t).mpr h1) (iblk0 V c 0 t) (iblk0 V c 1 t)
      (outsAt0 V c (t.val - 1) (Nat.lt_of_le_of_lt (Nat.sub_le _ _) t.isLt)).2.1 (outsAt0 V c (t.val - 1) (Nat.lt_of_le_of_lt (Nat.sub_le _ _) t.isLt)).2.2 :=
  (outsAt0_pos V c t (by omega)).trans (stepAt_C V c t _ h0 h1)

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by the point's position among the eight column tiles. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have hc1 : ¬cond0_1 (grid0.coords t) := fun h => by have := (hcond0_1 t).mp h; omega
    rw [Dat.leavesExact_idle (dat0 V c) 2 t (idleAt0_2 t hc1) (noFlush0_2 t hc1)]
    rw [outsAt0_A V c t h0 hc1]
    unfold leftA; (try dsimp only)
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ ((hcond0_0 t).mpr h0) hc1 (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 c _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ ((hcond0_0 t).mpr h0) hc1 (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 c _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 8 = 7
    · have hc0 : ¬cond0_0 (grid0.coords t) := fun h => h0 ((hcond0_0 t).mp h)
      have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t h0 h1]
      unfold leftC; (try dsimp only)
      rw [PhiS_castSucc V c t, PhiS_pos V c _ _ hz]
      iintro ⟨⟨⟨HS0, HS1, HR⟩, Hg⟩, Ho, ⟨%d0, H0⟩, ⟨%d1, H1⟩, ⟨%d2, H2⟩⟩
      iapply ((kernelRun0_C c (grid0.coords t) _ _ _ _ _ _ _ _ _ _ hc0 hc1 (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverC_0 c _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_2 c _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 2 t (idleAt0_2 t hc1) (noFlush0_2 t hc1)]
      rw [outsAt0_B V c t h0 h1]
      unfold leftB; (try dsimp only)
      rw [PhiS_castSucc V c t, PhiS_pos V c _ _ hz]
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ hc0 hc1 (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB_0 c _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: the running buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Region

end Cert.Kernel.Pass1

end
-- ==== Proof.KWhole.lean ====
/-
  The whole program's run. @main is two conversions of the arguments, the first pass, the second pass. Between these
  items every buffer the two passes share has known contents: as launched; then with the two converted copies written;
  then with the first pass's column at what its write-backs leave; then with the result array at what the second pass's
  write-backs leave. Each pass is a region entered from the contents before it and left at the contents after it; the
  launch composes them, and at the end every such buffer — the result and both arguments among them — is read at the
  last contents. The arguments are written by no item, so they end as launched.
-/
import proofs.«152099_j38809324487097_1_alg».proof.Proof.Gen.Kernel.Launch
import proofs.«152099_j38809324487097_1_alg».proof.Proof.Gen.Kernel.Skeleton
import proofs.«152099_j38809324487097_1_alg».proof.Proof.Gen.Kernel.Points
import proofs.«152099_j38809324487097_1_alg».proof.Proof.Gen.Kernel.Regions
import proofs.«152099_j38809324487097_1_alg».proof.Proof.KPass2
import proofs.«152099_j38809324487097_1_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Kernel.Pass1 Cert.Kernel.Pass2

variable (m : (ℓ : Loc nD τ sig) → Buf (Elt F) ℓ) (ρ : Dev nD → PrngReg)

/-! ## The buffers' contents at each boundary -/

/-- At launch. -/
abbrev Wl : Dev nD → Valuation τ sig (Elt F) := fun c b => m (c, b)
/-- After the two conversions. -/
abbrev Wh (c : Dev nD) : Valuation τ sig (Elt F) := StableHlo.after hostOps0 (Wl m c)
abbrev Vh : (c : Dev nD) → (b : Ref sig .tc) → Buf (Elt F) ((c : Thread nD τ).loc b) := fun c b => Wh m c b
/-- After the first pass: its arrays at what its write-backs leave, every other buffer as before. -/
def Wp (c : Dev nD) : Valuation τ sig (Elt F) :=
  Pipeline.withArrays spec0 c (Wh m c) fun w => (dat0 (Vh m) c).arrAt w cfg0.N
theorem Wp_arr (c : Dev nD) (w : Fin cfg0.W) :
    Wp m c (Proc.devRef .tc (Pipeline.arrRef spec0 w)) = (dat0 (Vh m) c).arrAt w cfg0.N := by
  unfold Wp; exact Pipeline.withArrays_arr spec0 launch0.win.arr_inj c _ _ w
theorem Wp_of_ne (c : Dev nD) (b : Ref sig .tc) (hb : ∀ w, Pipeline.arrRef spec0 w ≠ b) :
    Wp m c (Proc.devRef .tc b) = Wh m c (Proc.devRef .tc b) := by
  unfold Wp; exact Pipeline.withArrays_of_ne spec0 c _ _ b hb
abbrev Vp : (c : Dev nD) → (b : Ref sig .tc) → Buf (Elt F) ((c : Thread nD τ).loc b) := fun c b => Wp m c b
theorem hF0 (c : Dev nD) (w : Fin cfg0.W) : (dat0 (Vh m) c).arrAt w cfg0.N = Vp m c (Pipeline.arrRef spec0 w) :=
  (Wp_arr m c w).symm
theorem hrest0 (c : Dev nD) : ∀ b, b ∉ Finset.univ.image (Pipeline.arrRef spec0) → Vp m c b = Vh m c b :=
  fun b hb => Wp_of_ne m c b fun w e => hb (Finset.mem_image.mpr ⟨w, Finset.mem_univ _, e⟩)

/-- After the second pass. -/
def Wq (c : Dev nD) : Valuation τ sig (Elt F) :=
  Pipeline.withArrays spec1 c (Wp m c) fun w => (dat1 (Vp m) c).arrAt w cfg1.N
theorem Wq_arr (c : Dev nD) (w : Fin cfg1.W) :
    Wq m c (Proc.devRef .tc (Pipeline.arrRef spec1 w)) = (dat1 (Vp m) c).arrAt w cfg1.N := by
  unfold Wq; exact Pipeline.withArrays_arr spec1 launch1.win.arr_inj c _ _ w
theorem Wq_of_ne (c : Dev nD) (b : Ref sig .tc) (hb : ∀ w, Pipeline.arrRef spec1 w ≠ b) :
    Wq m c (Proc.devRef .tc b) = Wp m c (Proc.devRef .tc b) := by
  unfold Wq; exact Pipeline.withArrays_of_ne spec1 c _ _ b hb
abbrev Vq : (c : Dev nD) → (b : Ref sig .tc) → Buf (Elt F) ((c : Thread nD τ).loc b) := fun c b => Wq m c b
theorem hF1 (c : Dev nD) (w : Fin cfg1.W) : (dat1 (Vp m) c).arrAt w cfg1.N = Vq m c (Pipeline.arrRef spec1 w) :=
  (Wq_arr m c w).symm
theorem hrest1 (c : Dev nD) : ∀ b, b ∉ Finset.univ.image (Pipeline.arrRef spec1) → Vq m c b = Vp m c b :=
  fun b hb => Wq_of_ne m c b fun w e => hb (Finset.mem_image.mpr ⟨w, Finset.mem_univ _, e⟩)

/-- The conversions write only the two converted copies. -/
theorem Wh_of (c : Dev nD) (r : Ref sig .tc) (h : r ∉ hostOps0_W) : Wh m c (Proc.devRef .tc r) = m ((c : Thread nD τ).loc r) :=
  StableHlo.after_of_writes_sub hostOps0 _ hostOps0_writes h

/-- The arguments end as launched. -/
theorem Wq_main_arg0 (c : Dev nD) : Wq m c (Proc.devRef .tc main_arg0) = m ((c : Thread nD τ).loc main_arg0) :=
  calc Wq m c (Proc.devRef .tc main_arg0)
    _ = Wp m c (Proc.devRef .tc main_arg0) := Wq_of_ne m c main_arg0 (by decide)
    _ = Wh m c (Proc.devRef .tc main_arg0) := Wp_of_ne m c main_arg0 (by decide)
    _ = m ((c : Thread nD τ).loc main_arg0) := Wh_of m c main_arg0 (by decide)
theorem Wq_main_arg1 (c : Dev nD) : Wq m c (Proc.devRef .tc main_arg1) = m ((c : Thread nD τ).loc main_arg1) :=
  calc Wq m c (Proc.devRef .tc main_arg1)
    _ = Wp m c (Proc.devRef .tc main_arg1) := Wq_of_ne m c main_arg1 (by decide)
    _ = Wh m c (Proc.devRef .tc main_arg1) := Wp_of_ne m c main_arg1 (by decide)
    _ = m ((c : Thread nD τ).loc main_arg1) := Wh_of m c main_arg1 (by decide)
/-- The result array ends at what the second pass's write-backs leave. -/
theorem Wq_main_v3 (c : Dev nD) : Wq m c (Proc.devRef .tc main_v3) = (dat1 (Vp m) c).arrAt 3 cfg1.N := Wq_arr m c 3
/-- The second pass finds the first pass's column at what its write-backs leave, and the converted copies as the
    conversions left them. -/
theorem Vp_main_v2 (c : Dev nD) : Vp m c main_v2 = (dat0 (Vh m) c).arrAt 2 cfg0.N := Wp_arr m c 2
theorem Vp_main_v0 (c : Dev nD) : Vp m c main_v0 = Vh m c main_v0 :=
  (Wp_arr m c 0).trans (((dat0 (Vh m) c).arrAt_in 0 rfl _).trans (A_eq0 (Vh m) c 0))
theorem Vp_main_v1 (c : Dev nD) : Vp m c main_v1 = Vh m c main_v1 :=
  (Wp_arr m c 1).trans (((dat0 (Vh m) c).arrAt_in 1 rfl _).trans (A_eq0 (Vh m) c 1))

/-! ## The proof data family and the thread state -/

abbrev noTables : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) noTables p) c
  | ⟨0, _⟩ => fun c => dat0 (Vh m) c
  | ⟨1, _⟩ => fun c => dat1 (Vp m) c
abbrev 𝒱₀ : Variants := Variants.none
abbrev Lv : GSem nD τ sig → Finset Unit := fun _ => ∅
abbrev lvl : GSem nD τ sig → Unit → ℕ := fun _ _ => 0
/-- What rides beside the buffers through every item: the generator register at some state and the core owing nothing. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wq m c) ∗ ∃ r, prngReg c r)

/-! ## The two passes as regions -/

set_option backward.isDefEq.respectTransparency.types false in
/-- The first pass: entered from the contents after the conversions, left at the contents after its write-backs. -/
def reg0 : Pipeline.RegionSeg (pcfgs (F := F)) noTables (pdats m) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ Lv lvl 0 fun _ _ => rfl
  pre c := iprop(StableHlo.held (c : Thread nD τ) (Pipeline.ucRefs τ sig) (Wh m c) ∗ Rd c)
  post c := iprop(StableHlo.held (c : Thread nD τ) (Pipeline.ucRefs τ sig) (Wp m c) ∗ Rd c)
  X c := iprop(∃ r, prngReg c r)
  Y c := iprop(∃ r, prngReg c r)
  Z c := Pipeline.unscopedRest (Ix := Unit) (Name := ℕ) (U := Pipeline.UD sig nD τ) (Lvl := ℕ) spec0 c (Vh m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec0 c ⊢ (pdats m 0 c).Φ 0 from hin0 (Vh m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 0 c).Φ (Fin.last _) ⊢ Pipeline.ΦA spec0 c from hout0 (Vh m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := Pipeline.UD sig nD τ) (Lvl := ℕ)
      launch0.win launch0.arr_whole c (pdats m) ((pdats m 0 c).share_full fun _ => rfl)
      (Vh m c) (Vp m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from the contents after the first pass, left at the last contents. -/
def reg1 : Pipeline.RegionSeg (pcfgs (F := F)) noTables (pdats m) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (Vp m) c).loose
  hwaits := Pipeline.hwaits_of_owed_zero _ _ _ _ Lv lvl 1 fun _ _ => rfl
  pre c := iprop(StableHlo.held (c : Thread nD τ) (Pipeline.ucRefs τ sig) (Wp m c) ∗ Rd c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (Vp m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (Vp m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := Pipeline.UD sig nD τ) (Lvl := ℕ)
      launch1.win launch1.arr_whole c (pdats m) ((pdats m 1 c).share_full fun _ => rfl)
      (Vp m c) (Vq m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev items : List (Pipeline.Seg (pcfgs (F := F)) noTables (pdats m) () defs₀ 𝒱₀ Lv lvl) :=
  [ .host (hseg hostOps0 hostOps0_sub hostOps0_fresh (Wl m)),
    .region (reg0 m),
    .region (reg1 m) ]
theorem main_run (c : Dev nD) : main (F := F) c = Pipeline.Seg.run (items m) :=
  main_segs noTables (pdats m) () 𝒱₀ Lv lvl (hseg hostOps0 hostOps0_sub hostOps0_fresh (Wl m)) (reg0 m) (reg1 m) rfl c

set_option backward.isDefEq.respectTransparency.types false in
/-- THE RUN: from any memory with zero counters every weakly fair execution of @main terminates, nothing faulting, and
    every final state has the result array at what the second pass's write-backs leave and both arguments as launched. -/
theorem run_all : θ_run defs (onTc (τ := τ) (main (F := F))) ⟨m, fun _ => 0, ρ⟩ (fun r => ∀ c : Dev nD,
      r.2.mem ((c.tc : Thread nD τ).loc main_v3) = (dat1 (Vp m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) noTables (pdats m) () cellOf_inj embL defs₀ 𝒱₀ Lv lvl m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ Rd c)) (Tₙ := Tend m)
    (hch := ⟨fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wq m c b)
    (hfin := fun c s' => by
      iintro ⟨⟨Hh, -⟩, HSI⟩
      unfold StableHlo.held
      imodintro
      iapply (pointsTo_read_all (Pipeline.ucRefs τ sig) (fun b => (((c : Thread nD τ)).1, b)) (Wq m c) s')
      isplitl [Hh] <;> iassumption)
    (hQ := fun s h c =>
      ⟨(h c _ (mem_uc main_v3 (by decide))).trans (Wq_main_v3 m c),
       (h c _ (mem_uc main_arg0 (by decide))).trans (Wq_main_arg0 m c),
       (h c _ (mem_uc main_arg1 (by decide))).trans (Wq_main_arg1 m c)⟩)

end Cert.Kernel.Whole

end
-- ==== Proof.KIPass2.lean ====
/-
  The second pass as a pipeline region. At grid point t = (i, j) the body is handed three blocks — rows 1024 i … of the
  left operand, rows 1024 j … of the right operand, and the column of the first pass's results for rows 1024 i … — and
  writes one 1024 × 1024 block of the result: the exponential of the block's scores less the row's recorded value. It
  keeps nothing between points, so the region's proof data name each output block as that one function of the three
  input blocks, and the invariant is only the buffers the region does not use.
-/
import proofs.«152099_j38809324487097_1_alg».proof.Proof.Gen.KernelIdeal.Launch
import proofs.«152099_j38809324487097_1_alg».proof.Proof.Gen.KernelIdeal.Skeleton
import proofs.«152099_j38809324487097_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rSq : Rect S1024x1024 := Rect.unit (s := S1024x1024) ![0, 0] S1024x1024.size inb_S1024x1024_S1024x1024_0_0
abbrev rCol : Rect S1024x1 := Rect.unit (s := S1024x1) ![0, 0] S1024x1.size inb_S1024x1_S1024x1_0_0

/-- The output block after the body, from the three input blocks: its one store, of the exponentials. -/
def out1_3 (x0 x1 : Vec F S1024x1024 .bf16) (x2 : Vec F S1024x1 .f32) : Vec F S1024x1024 .f32 :=
  View.canon [⟨rSq, k1_pay1 (View.ld x0 rSq) (View.ld x1 rSq) (View.ld x2 rCol)⟩]

/-- The one store covers the block. -/
theorem cover1_3 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

set_option maxHeartbeats 1000000 in
/-- The body on whole staging buffers, the inputs' at their contents and the output's at anything, runs to the end holding
    the inputs' as they were and the output's at the exponentials of the inputs. -/
theorem sound_kernel1 (c : Dev nD) (E : Set ℕ) (i : grid1.Coords) (arg2 : Memref sig .tc .vmem S1024x1024 .bf16) (harg2 : arg2.IsWhole)
    (arg3 : Memref sig .tc .vmem S1024x1024 .bf16) (harg3 : arg3.IsWhole) (arg4 : Memref sig .tc .vmem S1024x1 .f32) (harg4 : arg4.IsWhole)
    (arg5 : Memref sig .tc .vmem S1024x1024 .f32) (harg5 : arg5.IsWhole)
    (x0 x1 : Vec F S1024x1024 .bf16) (x2 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__softmax_kernel i arg2 harg2 arg3 harg3 arg4 harg4 arg5 harg5) K := by
  simp only [cc1__softmax_kernel_eq_skeleton]; unfold cc1__softmax_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data: the arrays as the region finds them; after the body each input's buffer at its block and the
    output's at the exponentials of the three input blocks; the invariant the buffers the region leaves alone. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Pass2

end
-- ==== Proof.KIPass1.lean ====
/-
  The first pass as a pipeline region: what its three control cases share.

  At grid point t = (i, j) (t = 8 i + j) the body is handed rows 1024 i … of the left operand and rows 1024 j … of the right
  one. It keeps a running maximum and a running sum for its 1024 rows in two buffers of its own, which live across the
  eight points of a row tile: at j = 0 it first resets them (to −∞ and 0), at every j it folds the tile's scores in, and at
  j = 7 it also writes maximum + log sum into the output column's block, which is written back there and nowhere else.
  So the body has three cases — j = 0, 0 < j < 7, j = 7 — decided by two conditions on the grid position, stated here in
  closed form over the 64 points, with the facts about where the output window is idle and where it is written back.
-/
import proofs.«152099_j38809324487097_1_alg».proof.Proof.Gen.KernelIdeal.Launch
import proofs.«152099_j38809324487097_1_alg».proof.Proof.Gen.KernelIdeal.Skeleton
import proofs.«152099_j38809324487097_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two conditions on the grid position -/

/-- "This is the first column tile": the condition of the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column tile": the condition of the final store. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle, and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column tile the body stores nothing into the output block, and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column tile it stores the block. -/
theorem liveAt0_2 : ∀ t : Fin cfg0.N, cond0_1 (grid0.coords t) → cfg0.idle 2 (grid0.coords t) = false := by decide +kernel

/-! ## The buffers the body is called on -/

/-- One staging buffer of the output window, through which its contents are stated. -/
abbrev VO2 : View sig .tc .vmem S1024x1 .f32 := (Memref.whole cc0_stg2_0 : Memref sig .tc .vmem S1024x1 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The running maximum's and the running sum's buffers. -/
abbrev scM0 : Memref sig .tc .vmem S1024x1 .f32 := Memref.whole cc0_scratch0
abbrev scM1 : Memref sig .tc .vmem S1024x1 .f32 := Memref.whole cc0_scratch1
abbrev VS0 : View sig .tc .vmem S1024x1 .f32 := scM0.view
abbrev VS1 : View sig .tc .vmem S1024x1 .f32 := scM1.view

/-- The second pass's staging buffers, which this region leaves alone: each whole at some contents. -/
abbrev restBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant of a region that keeps nothing: the two running buffers at anything, the second pass's staging buffers
    at anything, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ restBufs c) ∗ (∃ r, prngReg c r)) := by
  unfold Pipeline.ΦA; rw [scopedRest0_eq]; simp only [scM0, scM1, owns_whole]; try rfl

end Cert.KernelIdeal.Pass1

end
-- ==== Proof.KIRunA.lean ====
/-
  The first pass's body run whole in the case of the first column tile (the reset, then the fold; no final store): on whole buffers, the two input blocks at their contents, the
  body runs to the end holding the inputs as they were and each buffer it stored into with its stores written, last first.
  The stores are found by running the body; what they amount to is read back elsewhere.
-/
import proofs.«152099_j38809324487097_1_alg».proof.Proof.Gen.KernelIdeal.Launch
import proofs.«152099_j38809324487097_1_alg».proof.Proof.Gen.KernelIdeal.Skeleton
import proofs.«152099_j38809324487097_1_alg».proof.Proof.Gen.KernelIdeal.Points
import proofs.«152099_j38809324487097_1_alg».proof.Proof.KIPass1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- First column tile: the output block is handed back untouched; the two running buffers, found at anything, end with the
    stores of the reset and of the fold. -/
noncomputable def kernelRun0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 x1 : Vec F S1024x1024 .bf16) :
    Σ' (L2 : List (View.Piece (Elt F) S1024x1 .f32)) (LS0 : List (View.Piece (Elt F) S1024x1 .f32)), { LS1 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨[], ?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Pass1

end
-- ==== Proof.KIRunB.lean ====
/-
  The first pass's body run whole in the case of a middle column tile (the fold alone): on whole buffers, the two input blocks at their contents, the
  body runs to the end holding the inputs as they were and each buffer it stored into with its stores written, last first.
  The stores are found by running the body; what they amount to is read back elsewhere.
-/
import proofs.«152099_j38809324487097_1_alg».proof.Proof.Gen.KernelIdeal.Launch
import proofs.«152099_j38809324487097_1_alg».proof.Proof.Gen.KernelIdeal.Skeleton
import proofs.«152099_j38809324487097_1_alg».proof.Proof.Gen.KernelIdeal.Points
import proofs.«152099_j38809324487097_1_alg».proof.Proof.KIPass1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- A middle column tile: the output block is handed back untouched; the two running buffers, found at what the point
    before left, end with the fold's stores. -/
noncomputable def kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 x1 : Vec F S1024x1024 .bf16) (xs0 xs1 : Vec F S1024x1 .f32) :
    Σ' (L2 : List (View.Piece (Elt F) S1024x1 .f32)) (LS0 : List (View.Piece (Elt F) S1024x1 .f32)), { LS1 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨[], ?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Pass1

end
-- ==== Proof.KIRunC.lean ====
/-
  The first pass's body run whole in the case of the last column tile (the fold, then the final store): on whole buffers, the two input blocks at their contents, the
  body runs to the end holding the inputs as they were and each buffer it stored into with its stores written, last first.
  The stores are found by running the body; what they amount to is read back elsewhere.
-/
import proofs.«152099_j38809324487097_1_alg».proof.Proof.Gen.KernelIdeal.Launch
import proofs.«152099_j38809324487097_1_alg».proof.Proof.Gen.KernelIdeal.Skeleton
import proofs.«152099_j38809324487097_1_alg».proof.Proof.Gen.KernelIdeal.Points
import proofs.«152099_j38809324487097_1_alg».proof.Proof.KIPass1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The last column tile: the two running buffers, found at what the point before left, end with the fold's stores, and
    the output block, found at anything, with the final store. -/
noncomputable def kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 x1 : Vec F S1024x1024 .bf16) (xs0 xs1 : Vec F S1024x1 .f32) :
    Σ' (L2 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Pass1

end
-- ==== Proof.KIData1.lean ====
/-
  The first pass's proof data. What each case's run leaves in the two running buffers (and, in the last-tile case, in the
  output block) is read back through the stores the run found; point by point the buffers' contents follow by recursion
  on the point, a first-tile point starting afresh and every other point continuing from what the point before left. The
  region's invariant names those contents: before the first point the two buffers hold anything; after point n they
  hold what point n left. The output block is live only at a row tile's last point, where it is written back.
-/
import proofs.«152099_j38809324487097_1_alg».proof.Proof.Gen.KernelIdeal.Launch
import proofs.«152099_j38809324487097_1_alg».proof.Proof.Gen.KernelIdeal.Skeleton
import proofs.«152099_j38809324487097_1_alg».proof.Proof.Gen.KernelIdeal.Points
import proofs.«152099_j38809324487097_1_alg».proof.Proof.KIRunA
import proofs.«152099_j38809324487097_1_alg».proof.Proof.KIRunB
import proofs.«152099_j38809324487097_1_alg».proof.Proof.KIRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves, read back through its stores -/

section Pieces
variable (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole)

theorem scoverA_0 (hc0 : cond0_0 i) (hc1 : ¬cond0_1 i) (x0 x1 : Vec F S1024x1024 .bf16) (y : S1024x1.Idx) :
    ∃ pc ∈ (kernelRun0_A c i arg2 harg2 arg3 harg3 arg4 harg4 arg5 harg5 arg6 harg6 hc0 hc1 x0 x1).2.1, y ∈ pc.1.set :=
  View.cover_of_tiledL _ S1024x1.size (by sl_kernel_rfl) y
theorem scoverA_1 (hc0 : cond0_0 i) (hc1 : ¬cond0_1 i) (x0 x1 : Vec F S1024x1024 .bf16) (y : S1024x1.Idx) :
    ∃ pc ∈ (kernelRun0_A c i arg2 harg2 arg3 harg3 arg4 harg4 arg5 harg5 arg6 harg6 hc0 hc1 x0 x1).2.2.1, y ∈ pc.1.set :=
  View.cover_of_tiledL _ S1024x1.size (by sl_kernel_rfl) y
theorem scoverB_0 (hc0 : ¬cond0_0 i) (hc1 : ¬cond0_1 i) (x0 x1 : Vec F S1024x1024 .bf16) (xs0 xs1 : Vec F S1024x1 .f32) (y : S1024x1.Idx) :
    ∃ pc ∈ (kernelRun0_B c i arg2 harg2 arg3 harg3 arg4 harg4 arg5 harg5 arg6 harg6 hc0 hc1 x0 x1 xs0 xs1).2.1, y ∈ pc.1.set :=
  View.cover_of_tiledL _ S1024x1.size (by sl_kernel_rfl) y
theorem scoverB_1 (hc0 : ¬cond0_0 i) (hc1 : ¬cond0_1 i) (x0 x1 : Vec F S1024x1024 .bf16) (xs0 xs1 : Vec F S1024x1 .f32) (y : S1024x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL _ S1024x1.size (by sl_kernel_rfl) y
theorem scoverC_0 (hc0 : ¬cond0_0 i) (hc1 : cond0_1 i) (x0 x1 : Vec F S1024x1024 .bf16) (xs0 xs1 : Vec F S1024x1 .f32) (y : S1024x1.Idx) :
    ∃ pc ∈ (kernelRun0_C c i arg2 harg2 arg3 harg3 arg4 harg4 arg5 harg5 arg6 harg6 hc0 hc1 x0 x1 xs0 xs1).2.1, y ∈ pc.1.set :=
  View.cover_of_tiledL _ S1024x1.size (by sl_kernel_rfl) y
theorem scoverC_1 (hc0 : ¬cond0_0 i) (hc1 : cond0_1 i) (x0 x1 : Vec F S1024x1024 .bf16) (xs0 xs1 : Vec F S1024x1 .f32) (y : S1024x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL _ S1024x1.size (by sl_kernel_rfl) y
theorem coverC_2 (hc0 : ¬cond0_0 i) (hc1 : cond0_1 i) (x0 x1 : Vec F S1024x1024 .bf16) (xs0 xs1 : Vec F S1024x1 .f32) (y : S1024x1.Idx) :
    ∃ pc ∈ (kernelRun0_C c i arg2 harg2 arg3 harg3 arg4 harg4 arg5 harg5 arg6 harg6 hc0 hc1 x0 x1 xs0 xs1).1, y ∈ pc.1.set :=
  View.cover_of_tiledL _ S1024x1.size (by sl_kernel_rfl) y

/-- What a case leaves: (the output block, the running maximum's buffer, the running sum's buffer). Where a case stores
    nothing into the output block the first component is a placeholder nothing consults. -/
def leftA (hc0 : cond0_0 i) (hc1 : ¬cond0_1 i) (x0 x1 : Vec F S1024x1024 .bf16) : Vec F S1024x1 .f32 × Vec F S1024x1 .f32 × Vec F S1024x1 .f32 :=
  (VO2.read (Elt F) (VO2.writes (Elt F) VO2.junk (kernelRun0_A c i arg2 harg2 arg3 harg3 arg4 harg4 arg5 harg5 arg6 harg6 hc0 hc1 x0 x1).1),
   VS0.read (Elt F) (VS0.writes (Elt F) VS0.junk (kernelRun0_A c i arg2 harg2 arg3 harg3 arg4 harg4 arg5 harg5 arg6 harg6 hc0 hc1 x0 x1).2.1),
   VS1.read (Elt F) (VS1.writes (Elt F) VS1.junk (kernelRun0_A c i arg2 harg2 arg3 harg3 arg4 harg4 arg5 harg5 arg6 harg6 hc0 hc1 x0 x1).2.2.1))
def leftB (hc0 : ¬cond0_0 i) (hc1 : ¬cond0_1 i) (x0 x1 : Vec F S1024x1024 .bf16) (xs0 xs1 : Vec F S1024x1 .f32) : Vec F S1024x1 .f32 × Vec F S1024x1 .f32 × Vec F S1024x1 .f32 :=
  (VO2.read (Elt F) (VO2.writes (Elt F) VO2.junk (kernelRun0_B c i arg2 harg2 arg3 harg3 arg4 harg4 arg5 harg5 arg6 harg6 hc0 hc1 x0 x1 xs0 xs1).1),
   VS0.read (Elt F) (VS0.writes (Elt F) VS0.junk (kernelRun0_B c i arg2 harg2 arg3 harg3 arg4 harg4 arg5 harg5 arg6 harg6 hc0 hc1 x0 x1 xs0 xs1).2.1),
   VS1.read (Elt F) (VS1.writes (Elt F) VS1.junk (kernelRun0_B c i arg2 harg2 arg3 harg3 arg4 harg4 arg5 harg5 arg6 harg6 hc0 hc1 x0 x1 xs0 xs1).2.2.1))
def leftC (hc0 : ¬cond0_0 i) (hc1 : cond0_1 i) (x0 x1 : Vec F S1024x1024 .bf16) (xs0 xs1 : Vec F S1024x1 .f32) : Vec F S1024x1 .f32 × Vec F S1024x1 .f32 × Vec F S1024x1 .f32 :=
  (VO2.read (Elt F) (VO2.writes (Elt F) VO2.junk (kernelRun0_C c i arg2 harg2 arg3 harg3 arg4 harg4 arg5 harg5 arg6 harg6 hc0 hc1 x0 x1 xs0 xs1).1),
   VS0.read (Elt F) (VS0.writes (Elt F) VS0.junk (kernelRun0_C c i arg2 harg2 arg3 harg3 arg4 harg4 arg5 harg5 arg6 harg6 hc0 hc1 x0 x1 xs0 xs1).2.1),
   VS1.read (Elt F) (VS1.writes (Elt F) VS1.junk (kernelRun0_C c i arg2 harg2 arg3 harg3 arg4 harg4 arg5 harg5 arg6 harg6 hc0 hc1 x0 x1 xs0 xs1).2.2.1))

end Pieces

section Region
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Any vector of the running buffers' shape (for "before the first point"). -/
def anyCol : Vec F S1024x1 .f32 := VS0.read (Elt F) VS0.junk

/-- What point t leaves, given what the point before left in the two running buffers: the case the position selects. -/
def stepAt (c : Dev nD) (t : Fin cfg0.N) (prev : Vec F S1024x1 .f32 × Vec F S1024x1 .f32) : Vec F S1024x1 .f32 × Vec F S1024x1 .f32 × Vec F S1024x1 .f32 :=
  if h0 : t.val % 8 = 0 then
    leftA c (grid0.coords t) (ms0_0 t) (hs0_0 t) (ms0_1 t) (hs0_1 t) (ms0_2 t) (hs0_2 t) scM0 (Memref.isWhole_whole _) scM1 (Memref.isWhole_whole _) ((hcond0_0 t).mpr h0) (fun h => by have := (hcond0_1 t).mp h; omega) (iblk0 V c 0 t) (iblk0 V c 1 t)
  else if h1 : t.val % 8 = 7 then
    leftC c (grid0.coords t) (ms0_0 t) (hs0_0 t) (ms0_1 t) (hs0_1 t) (ms0_2 t) (hs0_2 t) scM0 (Memref.isWhole_whole _) scM1 (Memref.isWhole_whole _) (fun h => h0 ((hcond0_0 t).mp h)) ((hcond0_1 t).mpr h1) (iblk0 V c 0 t) (iblk0 V c 1 t) prev.1 prev.2
  else
    leftB c (grid0.coords t) (ms0_0 t) (hs0_0 t) (ms0_1 t) (hs0_1 t) (ms0_2 t) (hs0_2 t) scM0 (Memref.isWhole_whole _) scM1 (Memref.isWhole_whole _) (fun h => h0 ((hcond0_0 t).mp h)) (fun h => h1 ((hcond0_1 t).mp h)) (iblk0 V c 0 t) (iblk0 V c 1 t) prev.1 prev.2

theorem stepAt_A (c : Dev nD) (t : Fin cfg0.N) (prev) (h0 : t.val % 8 = 0) (hc1 : ¬cond0_1 (grid0.coords t)) :
    stepAt V c t prev = leftA c (grid0.coords t) (ms0_0 t) (hs0_0 t) (ms0_1 t) (hs0_1 t) (ms0_2 t) (hs0_2 t) scM0 (Memref.isWhole_whole _) scM1 (Memref.isWhole_whole _) ((hcond0_0 t).mpr h0) hc1 (iblk0 V c 0 t) (iblk0 V c 1 t) := by
  unfold stepAt; rw [dif_pos h0]
theorem stepAt_B (c : Dev nD) (t : Fin cfg0.N) (prev) (h0 : ¬t.val % 8 = 0) (h1 : ¬t.val % 8 = 7) :
    stepAt V c t prev = leftB c (grid0.coords t) (ms0_0 t) (hs0_0 t) (ms0_1 t) (hs0_1 t) (ms0_2 t) (hs0_2 t) scM0 (Memref.isWhole_whole _) scM1 (Memref.isWhole_whole _) (fun h => h0 ((hcond0_0 t).mp h)) (fun h => h1 ((hcond0_1 t).mp h)) (iblk0 V c 0 t) (iblk0 V c 1 t) prev.1 prev.2 := by
  unfold stepAt; rw [dif_neg h0, dif_neg h1]
theorem stepAt_C (c : Dev nD) (t : Fin cfg0.N) (prev) (h0 : ¬t.val % 8 = 0) (h1 : t.val % 8 = 7) :
    stepAt V c t prev = leftC c (grid0.coords t) (ms0_0 t) (hs0_0 t) (ms0_1 t) (hs0_1 t) (ms0_2 t) (hs0_2 t) scM0 (Memref.isWhole_whole _) scM1 (Memref.isWhole_whole _) (fun h => h0 ((hcond0_0 t).mp h)) ((hcond0_1 t).mpr h1) (iblk0 V c 0 t) (iblk0 V c 1 t) prev.1 prev.2 := by
  unfold stepAt; rw [dif_neg h0, dif_pos h1]

/-- THE ACCUMULATION: what the output block and the two running buffers hold after the body at position n. -/
def outsAt0 (c : Dev nD) : (n : ℕ) → n < cfg0.N → Vec F S1024x1 .f32 × Vec F S1024x1 .f32 × Vec F S1024x1 .f32
  | 0, hn => stepAt V c ⟨0, hn⟩ (anyCol, anyCol)
  | n + 1, hn => stepAt V c ⟨n + 1, hn⟩ (outsAt0 c n (Nat.lt_of_succ_lt hn)).2

theorem outsAt0_zero (c : Dev nD) (hn : 0 < cfg0.N) : outsAt0 V c 0 hn = stepAt V c ⟨0, hn⟩ (anyCol, anyCol) := rfl
theorem outsAt0_succ (c : Dev nD) (n : ℕ) (hn : n + 1 < cfg0.N) :
    outsAt0 V c (n + 1) hn = stepAt V c ⟨n + 1, hn⟩ (outsAt0 V c n (Nat.lt_of_succ_lt hn)).2 := rfl
/-- At a point that is not the first, the point continues from what the point before left. -/
theorem outsAt0_pos (c : Dev nD) (t : Fin cfg0.N) (hz : t.val ≠ 0) :
    outsAt0 V c t.val t.isLt = stepAt V c t (outsAt0 V c (t.val - 1) (Nat.lt_of_le_of_lt (Nat.sub_le _ _) t.isLt)).2 := by
  obtain ⟨n, hn⟩ := t
  cases n with
  | zero => exact absurd rfl hz
  | succ n => rfl

/-- The region's invariant before position n: before the first point the two running buffers at anything; afterwards at
    what the point before left; beside them the second pass's staging buffers and the generator register, untouched. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.1) ∗ owns (c : Thread nD τ) scM1 fullShare ((outsAt0 V c n hn).2.2) ∗ restBufs c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.1) ∗ owns (c : Thread nD τ) scM1 fullShare ((outsAt0 V c n hn).2.2) ∗ restBufs c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.1) ∗ owns (c : Thread nD τ) scM1 fullShare ((outsAt0 V c (n - 1) (by omega)).2.2) ∗ restBufs c) ∗ (∃ r, prngReg c r)) := by
  cases n with
  | zero => exact absurd rfl hz
  | succ n => rfl

/-- The region's proof data. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.KernelIdeal.Pass1

end
-- ==== Proof.KIBody1.lean ====
/-
  The first pass's body obligation: at every grid point the body, called on the current staging buffers and handed the
  two running buffers by the region's invariant, runs to the end and gives everything back — the running buffers at the
  contents the invariant names for the next point, the output block stored only at a row tile's last column tile.
-/
import proofs.«152099_j38809324487097_1_alg».proof.Proof.Gen.KernelIdeal.Launch
import proofs.«152099_j38809324487097_1_alg».proof.Proof.Gen.KernelIdeal.Skeleton
import proofs.«152099_j38809324487097_1_alg».proof.Proof.Gen.KernelIdeal.Points
import proofs.«152099_j38809324487097_1_alg».proof.Proof.KIData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

theorem outsAt0_A (c : Dev nD) (t : Fin cfg0.N) (h0 : t.val % 8 = 0) (hc1 : ¬cond0_1 (grid0.coords t)) :
    outsAt0 V c t.val t.isLt = leftA c (grid0.coords t) (ms0_0 t) (hs0_0 t) (ms0_1 t) (hs0_1 t) (ms0_2 t) (hs0_2 t) scM0 (Memref.isWhole_whole _) scM1 (Memref.isWhole_whole _) ((hcond0_0 t).mpr h0) hc1 (iblk0 V c 0 t) (iblk0 V c 1 t) := by
  obtain ⟨n, hn⟩ := t
  cases n with
  | zero => exact stepAt_A V c ⟨0, hn⟩ _ h0 hc1
  | succ n => exact stepAt_A V c ⟨n + 1, hn⟩ _ h0 hc1
theorem outsAt0_B (c : Dev nD) (t : Fin cfg0.N) (h0 : ¬t.val % 8 = 0) (h1 : ¬t.val % 8 = 7) :
    outsAt0 V c t.val t.isLt = leftB c (grid0.coords t) (ms0_0 t) (hs0_0 t) (ms0_1 t) (hs0_1 t) (ms0_2 t) (hs0_2 t) scM0 (Memref.isWhole_whole _) scM1 (Memref.isWhole_whole _) (fun h => h0 ((hcond0_0 t).mp h)) (fun h => h1 ((hcond0_1 t).mp h)) (iblk0 V c 0 t) (iblk0 V c 1 t)
      (outsAt0 V c (t.val - 1) (Nat.lt_of_le_of_lt (Nat.sub_le _ _) t.isLt)).2.1 (outsAt0 V c (t.val - 1) (Nat.lt_of_le_of_lt (Nat.sub_le _ _) t.isLt)).2.2 :=
  (outsAt0_pos V c t (by omega)).trans (stepAt_B V c t _ h0 h1)
theorem outsAt0_C (c : Dev nD) (t : Fin cfg0.N) (h0 : ¬t.val % 8 = 0) (h1 : t.val % 8 = 7) :
    outsAt0 V c t.val t.isLt = leftC c (grid0.coords t) (ms0_0 t) (hs0_0 t) (ms0_1 t) (hs0_1 t) (ms0_2 t) (hs0_2 t) scM0 (Memref.isWhole_whole _) scM1 (Memref.isWhole_whole _) (fun h => h0 ((hcond0_0 t).mp h)) ((hcond0_1 t).mpr h1) (iblk0 V c 0 t) (iblk0 V c 1 t)
      (outsAt0 V c (t.val - 1) (Nat.lt_of_le_of_lt (Nat.sub_le _ _) t.isLt)).2.1 (outsAt0 V c (t.val - 1) (Nat.lt_of_le_of_lt (Nat.sub_le _ _) t.isLt)).2.2 :=
  (outsAt0_pos V c t (by omega)).trans (stepAt_C V c t _ h0 h1)

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by the point's position among the eight column tiles. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have hc1 : ¬cond0_1 (grid0.coords t) := fun h => by have := (hcond0_1 t).mp h; omega
    rw [Dat.leavesExact_idle (dat0 V c) 2 t (idleAt0_2 t hc1) (noFlush0_2 t hc1)]
    rw [outsAt0_A V c t h0 hc1]
    unfold leftA; (try dsimp only)
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ ((hcond0_0 t).mpr h0) hc1 (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 c _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ ((hcond0_0 t).mpr h0) hc1 (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 c _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 8 = 7
    · have hc0 : ¬cond0_0 (grid0.coords t) := fun h => h0 ((hcond0_0 t).mp h)
      have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t h0 h1]
      unfold leftC; (try dsimp only)
      rw [PhiS_castSucc V c t, PhiS_pos V c _ _ hz]
      iintro ⟨⟨⟨HS0, HS1, HR⟩, Hg⟩, Ho, ⟨%d0, H0⟩, ⟨%d1, H1⟩, ⟨%d2, H2⟩⟩
      iapply ((kernelRun0_C c (grid0.coords t) _ _ _ _ _ _ _ _ _ _ hc0 hc1 (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverC_0 c _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_2 c _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 2 t (idleAt0_2 t hc1) (noFlush0_2 t hc1)]
      rw [outsAt0_B V c t h0 h1]
      unfold leftB; (try dsimp only)
      rw [PhiS_castSucc V c t, PhiS_pos V c _ _ hz]
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ hc0 hc1 (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB_0 c _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: the running buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Region

end Cert.KernelIdeal.Pass1

end
-- ==== Proof.KIWhole.lean ====
/-
  The whole program's run. @main is two conversions of the arguments, the first pass, the second pass. Between these
  items every buffer the two passes share has known contents: as launched; then with the two converted copies written;
  then with the first pass's column at what its write-backs leave; then with the result array at what the second pass's
  write-backs leave. Each pass is a region entered from the contents before it and left at the contents after it; the
  launch composes them, and at the end every such buffer — the result and both arguments among them — is read at the
  last contents. The arguments are written by no item, so they end as launched.
-/
import proofs.«152099_j38809324487097_1_alg».proof.Proof.Gen.KernelIdeal.Launch
import proofs.«152099_j38809324487097_1_alg».proof.Proof.Gen.KernelIdeal.Skeleton
import proofs.«152099_j38809324487097_1_alg».proof.Proof.Gen.KernelIdeal.Points
import proofs.«152099_j38809324487097_1_alg».proof.Proof.Gen.KernelIdeal.Regions
import proofs.«152099_j38809324487097_1_alg».proof.Proof.KIPass2
import proofs.«152099_j38809324487097_1_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.KernelIdeal.Pass1 Cert.KernelIdeal.Pass2

variable (m : (ℓ : Loc nD τ sig) → Buf (Elt F) ℓ) (ρ : Dev nD → PrngReg)

/-! ## The buffers' contents at each boundary -/

/-- At launch. -/
abbrev Wl : Dev nD → Valuation τ sig (Elt F) := fun c b => m (c, b)
/-- After the two conversions. -/
abbrev Wh (c : Dev nD) : Valuation τ sig (Elt F) := StableHlo.after hostOps0 (Wl m c)
abbrev Vh : (c : Dev nD) → (b : Ref sig .tc) → Buf (Elt F) ((c : Thread nD τ).loc b) := fun c b => Wh m c b
/-- After the first pass: its arrays at what its write-backs leave, every other buffer as before. -/
def Wp (c : Dev nD) : Valuation τ sig (Elt F) :=
  Pipeline.withArrays spec0 c (Wh m c) fun w => (dat0 (Vh m) c).arrAt w cfg0.N
theorem Wp_arr (c : Dev nD) (w : Fin cfg0.W) :
    Wp m c (Proc.devRef .tc (Pipeline.arrRef spec0 w)) = (dat0 (Vh m) c).arrAt w cfg0.N := by
  unfold Wp; exact Pipeline.withArrays_arr spec0 launch0.win.arr_inj c _ _ w
theorem Wp_of_ne (c : Dev nD) (b : Ref sig .tc) (hb : ∀ w, Pipeline.arrRef spec0 w ≠ b) :
    Wp m c (Proc.devRef .tc b) = Wh m c (Proc.devRef .tc b) := by
  unfold Wp; exact Pipeline.withArrays_of_ne spec0 c _ _ b hb
abbrev Vp : (c : Dev nD) → (b : Ref sig .tc) → Buf (Elt F) ((c : Thread nD τ).loc b) := fun c b => Wp m c b
theorem hF0 (c : Dev nD) (w : Fin cfg0.W) : (dat0 (Vh m) c).arrAt w cfg0.N = Vp m c (Pipeline.arrRef spec0 w) :=
  (Wp_arr m c w).symm
theorem hrest0 (c : Dev nD) : ∀ b, b ∉ Finset.univ.image (Pipeline.arrRef spec0) → Vp m c b = Vh m c b :=
  fun b hb => Wp_of_ne m c b fun w e => hb (Finset.mem_image.mpr ⟨w, Finset.mem_univ _, e⟩)

/-- After the second pass. -/
def Wq (c : Dev nD) : Valuation τ sig (Elt F) :=
  Pipeline.withArrays spec1 c (Wp m c) fun w => (dat1 (Vp m) c).arrAt w cfg1.N
theorem Wq_arr (c : Dev nD) (w : Fin cfg1.W) :
    Wq m c (Proc.devRef .tc (Pipeline.arrRef spec1 w)) = (dat1 (Vp m) c).arrAt w cfg1.N := by
  unfold Wq; exact Pipeline.withArrays_arr spec1 launch1.win.arr_inj c _ _ w
theorem Wq_of_ne (c : Dev nD) (b : Ref sig .tc) (hb : ∀ w, Pipeline.arrRef spec1 w ≠ b) :
    Wq m c (Proc.devRef .tc b) = Wp m c (Proc.devRef .tc b) := by
  unfold Wq; exact Pipeline.withArrays_of_ne spec1 c _ _ b hb
abbrev Vq : (c : Dev nD) → (b : Ref sig .tc) → Buf (Elt F) ((c : Thread nD τ).loc b) := fun c b => Wq m c b
theorem hF1 (c : Dev nD) (w : Fin cfg1.W) : (dat1 (Vp m) c).arrAt w cfg1.N = Vq m c (Pipeline.arrRef spec1 w) :=
  (Wq_arr m c w).symm
theorem hrest1 (c : Dev nD) : ∀ b, b ∉ Finset.univ.image (Pipeline.arrRef spec1) → Vq m c b = Vp m c b :=
  fun b hb => Wq_of_ne m c b fun w e => hb (Finset.mem_image.mpr ⟨w, Finset.mem_univ _, e⟩)

/-- The conversions write only the two converted copies. -/
theorem Wh_of (c : Dev nD) (r : Ref sig .tc) (h : r ∉ hostOps0_W) : Wh m c (Proc.devRef .tc r) = m ((c : Thread nD τ).loc r) :=
  StableHlo.after_of_writes_sub hostOps0 _ hostOps0_writes h

/-- The arguments end as launched. -/
theorem Wq_main_arg0 (c : Dev nD) : Wq m c (Proc.devRef .tc main_arg0) = m ((c : Thread nD τ).loc main_arg0) :=
  calc Wq m c (Proc.devRef .tc main_arg0)
    _ = Wp m c (Proc.devRef .tc main_arg0) := Wq_of_ne m c main_arg0 (by decide)
    _ = Wh m c (Proc.devRef .tc main_arg0) := Wp_of_ne m c main_arg0 (by decide)
    _ = m ((c : Thread nD τ).loc main_arg0) := Wh_of m c main_arg0 (by decide)
theorem Wq_main_arg1 (c : Dev nD) : Wq m c (Proc.devRef .tc main_arg1) = m ((c : Thread nD τ).loc main_arg1) :=
  calc Wq m c (Proc.devRef .tc main_arg1)
    _ = Wp m c (Proc.devRef .tc main_arg1) := Wq_of_ne m c main_arg1 (by decide)
    _ = Wh m c (Proc.devRef .tc main_arg1) := Wp_of_ne m c main_arg1 (by decide)
    _ = m ((c : Thread nD τ).loc main_arg1) := Wh_of m c main_arg1 (by decide)
/-- The result array ends at what the second pass's write-backs leave. -/
theorem Wq_main_v3 (c : Dev nD) : Wq m c (Proc.devRef .tc main_v3) = (dat1 (Vp m) c).arrAt 3 cfg1.N := Wq_arr m c 3
/-- The second pass finds the first pass's column at what its write-backs leave, and the converted copies as the
    conversions left them. -/
theorem Vp_main_v2 (c : Dev nD) : Vp m c main_v2 = (dat0 (Vh m) c).arrAt 2 cfg0.N := Wp_arr m c 2
theorem Vp_main_v0 (c : Dev nD) : Vp m c main_v0 = Vh m c main_v0 :=
  (Wp_arr m c 0).trans (((dat0 (Vh m) c).arrAt_in 0 rfl _).trans (A_eq0 (Vh m) c 0))
theorem Vp_main_v1 (c : Dev nD) : Vp m c main_v1 = Vh m c main_v1 :=
  (Wp_arr m c 1).trans (((dat0 (Vh m) c).arrAt_in 1 rfl _).trans (A_eq0 (Vh m) c 1))

/-! ## The proof data family and the thread state -/

abbrev noTables : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) noTables p) c
  | ⟨0, _⟩ => fun c => dat0 (Vh m) c
  | ⟨1, _⟩ => fun c => dat1 (Vp m) c
abbrev 𝒱₀ : Variants := Variants.none
abbrev Lv : GSem nD τ sig → Finset Unit := fun _ => ∅
abbrev lvl : GSem nD τ sig → Unit → ℕ := fun _ _ => 0
/-- What rides beside the buffers through every item: the generator register at some state and the core owing nothing. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wq m c) ∗ ∃ r, prngReg c r)

/-! ## The two passes as regions -/

set_option backward.isDefEq.respectTransparency.types false in
/-- The first pass: entered from the contents after the conversions, left at the contents after its write-backs. -/
def reg0 : Pipeline.RegionSeg (pcfgs (F := F)) noTables (pdats m) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ Lv lvl 0 fun _ _ => rfl
  pre c := iprop(StableHlo.held (c : Thread nD τ) (Pipeline.ucRefs τ sig) (Wh m c) ∗ Rd c)
  post c := iprop(StableHlo.held (c : Thread nD τ) (Pipeline.ucRefs τ sig) (Wp m c) ∗ Rd c)
  X c := iprop(∃ r, prngReg c r)
  Y c := iprop(∃ r, prngReg c r)
  Z c := Pipeline.unscopedRest (Ix := Unit) (Name := ℕ) (U := Pipeline.UD sig nD τ) (Lvl := ℕ) spec0 c (Vh m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec0 c ⊢ (pdats m 0 c).Φ 0 from hin0 (Vh m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 0 c).Φ (Fin.last _) ⊢ Pipeline.ΦA spec0 c from hout0 (Vh m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := Pipeline.UD sig nD τ) (Lvl := ℕ)
      launch0.win launch0.arr_whole c (pdats m) ((pdats m 0 c).share_full fun _ => rfl)
      (Vh m c) (Vp m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from the contents after the first pass, left at the last contents. -/
def reg1 : Pipeline.RegionSeg (pcfgs (F := F)) noTables (pdats m) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (Vp m) c).loose
  hwaits := Pipeline.hwaits_of_owed_zero _ _ _ _ Lv lvl 1 fun _ _ => rfl
  pre c := iprop(StableHlo.held (c : Thread nD τ) (Pipeline.ucRefs τ sig) (Wp m c) ∗ Rd c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (Vp m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (Vp m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := Pipeline.UD sig nD τ) (Lvl := ℕ)
      launch1.win launch1.arr_whole c (pdats m) ((pdats m 1 c).share_full fun _ => rfl)
      (Vp m c) (Vq m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev items : List (Pipeline.Seg (pcfgs (F := F)) noTables (pdats m) () defs₀ 𝒱₀ Lv lvl) :=
  [ .host (hseg hostOps0 hostOps0_sub hostOps0_fresh (Wl m)),
    .region (reg0 m),
    .region (reg1 m) ]
theorem main_run (c : Dev nD) : main (F := F) c = Pipeline.Seg.run (items m) :=
  main_segs noTables (pdats m) () 𝒱₀ Lv lvl (hseg hostOps0 hostOps0_sub hostOps0_fresh (Wl m)) (reg0 m) (reg1 m) rfl c

set_option backward.isDefEq.respectTransparency.types false in
/-- THE RUN: from any memory with zero counters every weakly fair execution of @main terminates, nothing faulting, and
    every final state has the result array at what the second pass's write-backs leave and both arguments as launched. -/
theorem run_all : θ_run defs (onTc (τ := τ) (main (F := F))) ⟨m, fun _ => 0, ρ⟩ (fun r => ∀ c : Dev nD,
      r.2.mem ((c.tc : Thread nD τ).loc main_v3) = (dat1 (Vp m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) noTables (pdats m) () cellOf_inj embL defs₀ 𝒱₀ Lv lvl m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ Rd c)) (Tₙ := Tend m)
    (hch := ⟨fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wq m c b)
    (hfin := fun c s' => by
      iintro ⟨⟨Hh, -⟩, HSI⟩
      unfold StableHlo.held
      imodintro
      iapply (pointsTo_read_all (Pipeline.ucRefs τ sig) (fun b => (((c : Thread nD τ)).1, b)) (Wq m c) s')
      isplitl [Hh] <;> iassumption)
    (hQ := fun s h c =>
      ⟨(h c _ (mem_uc main_v3 (by decide))).trans (Wq_main_v3 m c),
       (h c _ (mem_uc main_arg0 (by decide))).trans (Wq_main_arg0 m c),
       (h c _ (mem_uc main_arg1 (by decide))).trans (Wq_main_arg1 m c)⟩)

end Cert.KernelIdeal.Whole

end
-- ==== Proof.Spec.lean ====
/-
  The mathematics of the two-pass softmax, stated once and free of any program.

  A row of scores σ over 8192 columns is visited in 8 column tiles of 1024. Pass one keeps, tile after tile, a running
  maximum m and a running sum l of exponentials taken relative to the running maximum: on meeting a tile x,
      m' = max m (max_q x q),      l' = exp (m - m') · l + Σ_q exp (x q - m'),
  starting from m = −∞, l = 0; after the last tile it records  lse = m + log l.  Pass two writes exp (σ k − lse).
  The reference writes exp (σ k − M) / Σ_k' exp (σ k' − M) with M the row's maximum (taken from −∞).
  On a row of real scores the two agree: l is then Σ_k exp (σ k − M) with M = m, a positive real, and
  exp (x − M − log l) = exp (x − M) / l.
-/
import Idealize.ShloMosaic.PureOps.Ideal
import Idealize.ShloMosaic.Lib.ValueIdx

noncomputable section

namespace Cert.TwoPass

open Idealize.ShloMosaic Idealize.ShloMosaic.ValueIdx

/-- The largest of a tile's entries, from −∞. -/
def tileMax {C : Nat} (x : Fin C → EReal) : EReal := (Finset.univ : Finset (Fin C)).fold max ⊥ x

/-- The running maximum after one more tile. -/
def mNext {C : Nat} (m : EReal) (x : Fin C → EReal) : EReal := max m (tileMax x)

/-- The running sum after one more tile: the old sum rescaled to the new maximum, plus the tile's exponentials. -/
def lNext {C : Nat} (m l : EReal) (x : Fin C → EReal) : EReal :=
  Ideal.exp (m - mNext m x) * l + ∑ q : Fin C, Ideal.exp (x q - mNext m x)

/-- The running pair (maximum, sum) after the first n tiles of a row whose tiles are s 0, s 1, …. -/
def acc {C : Nat} (s : Nat → Fin C → EReal) : Nat → EReal × EReal
  | 0 => (⊥, 0)
  | n + 1 => (mNext (acc s n).1 (s n), lNext (acc s n).1 (acc s n).2 (s n))

theorem acc_zero {C : Nat} (s : Nat → Fin C → EReal) : acc s 0 = (⊥, 0) := rfl
theorem acc_succ {C : Nat} (s : Nat → Fin C → EReal) (n : Nat) :
    acc s (n + 1) = (mNext (acc s n).1 (s n), lNext (acc s n).1 (acc s n).2 (s n)) := rfl

/-- What pass one records for the row after J tiles: the logarithm of the sum of the exponentials of its scores. -/
def lse {C : Nat} (s : Nat → Fin C → EReal) (J : Nat) : EReal := (acc s J).1 + Ideal.log (acc s J).2

/-- Tile j of a row σ of 8192 scores: columns 1024 j … 1024 j + 1023 (nothing beyond the eighth tile). -/
def tiles (σ : Fin 8192 → EReal) (j : Nat) (q : Fin 1024) : EReal :=
  if h : j < 8 then σ ⟨1024 * j + q.val, by have := q.isLt; omega⟩ else 0

/-- The two-pass result at column k of a row σ. -/
def twoPass (σ : Fin 8192 → EReal) (k : Fin 8192) : EReal := Ideal.exp (σ k - lse (tiles σ) 8)

/-- The row's maximum as the reference takes it: the maximum with −∞ of the fold from −∞. -/
def rowTop (σ : Fin 8192 → EReal) : EReal := max ⊥ ((Finset.univ : Finset (Fin 8192)).fold max ⊥ σ)

/-- The reference's result at column k of a row σ: the stable softmax, the sum taken from zero. -/
def onePass (σ : Fin 8192 → EReal) (k : Fin 8192) : EReal :=
  Ideal.div (Ideal.exp (σ k - rowTop σ)) (0 + ∑ k' : Fin 8192, Ideal.exp (σ k' - rowTop σ))

/-- The score of row r of a against row k of b: the inner product over the 1024 hidden coordinates. -/
def score (a b : FVec Ideal ⟨2, ![8192, 1024]⟩ .f32) (r k : Fin 8192) : EReal :=
  ∑ h : Fin 1024, a (ix2 r h) * b (ix2 k h)

/-- The kernel's result as one function of the two argument arrays. -/
def kernelOut (a b : FVec Ideal ⟨2, ![8192, 1024]⟩ .f32) : FVec Ideal ⟨2, ![8192, 8192]⟩ .f32 := fun idx =>
  twoPass (score a b ⟨(idx 0).val, (idx 0).isLt⟩) ⟨(idx 1).val, (idx 1).isLt⟩

/-- The reference's result as one function of the two argument arrays. -/
def referenceOut (a b : FVec Ideal ⟨2, ![8192, 1024]⟩ .f32) : FVec Ideal ⟨2, ![8192, 8192]⟩ .f32 := fun idx =>
  onePass (score a b ⟨(idx 0).val, (idx 0).isLt⟩) ⟨(idx 1).val, (idx 1).isLt⟩

theorem kernelOut_apply (a b : FVec Ideal ⟨2, ![8192, 1024]⟩ .f32) (r k : Fin 8192) :
    kernelOut a b (ix2 r k) = twoPass (score a b r) k := rfl

theorem referenceOut_apply (a b : FVec Ideal ⟨2, ![8192, 1024]⟩ .f32) (r k : Fin 8192) :
    referenceOut a b (ix2 r k) = onePass (score a b r) k := rfl

end Cert.TwoPass

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.LibRowMax.lean ====
/-
  The largest entry of each row of a matrix, read at a row.

  A kernel takes the maximum over the last axis of an [a, c] matrix by a lane reduction from an accumulator word; the
  host takes it by a reduce whose body is the maximum, from an initial value held in a rank-0 array. Over the extended
  reals both are, at row p, the fold of `max` from the starting value over the c entries (p, q) of that row, in any
  order. Generic in a and c; the host form takes the witness that names the inserted coordinate as an argument.
-/
import Idealize.ShloMosaic.PureOps.Ideal.Laws
import Idealize.ShloMosaic.Lib.ValueIdx

noncomputable section

namespace Cert.LibRowMax

open Idealize.ShloMosaic Idealize.ShloMosaic.ValueIdx

/-- The index of row `p` with the column `q` put back is `(p, q)`. -/
theorem lift_last {a c : Nat} (h : (⟨2, ![a, c]⟩ : Shape).Reduces [1] ⟨1, ![a]⟩) (p : Fin a) (q : Fin c) :
    h.lift (ix1 p) q = ix2 p q :=
  funext fun ax => Fin.ext (by
    match ax with
    | ⟨0, _⟩ => rfl
    | ⟨1, _⟩ => rfl)

/-- A lane maximum over the last axis of [a, c], from the accumulator word `acc`, at row `p`. -/
theorem lane_max_last_apply {a c : Nat} (src : FVec Ideal ⟨2, ![a, c]⟩ .f32) (acc : BitVec 32)
    (h : (⟨2, ![a, c]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin c)).fold max (Ideal.ofBits .f32 acc) (fun q => src (ix2 p q)) := by
  refine (Ideal.multiReduction_maximumf_single src acc h hφ hacc (ix1 p)).trans ?_
  exact Finset.fold_congr fun q _ => congrArg src (lift_last h p q)

/-- The host's reduce with the maximum as its body over the last axis of [a, c], from the initial value `init`, at
    row `p`. -/
theorem host_max_last_apply {a c : Nat} {u : Shape} (x : FVec Ideal ⟨2, ![a, c]⟩ .f32) (init : FVec Ideal u .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduce (FloatOps.maximumf (F := Ideal) (φ := .f32)) x init h' hu (ix1 p)
      = (Finset.univ : Finset (Fin c)).fold max (init (Shape.Idx.first hu)) (fun q => x (ix2 p q)) := by
  refine (Host.reduce_eq_fold_single (FloatOps.maximumf (F := Ideal) (φ := .f32)) x init h' h hu (ix1 p)).trans ?_
  exact Finset.fold_congr fun q _ => congrArg x (lift_last h p q)

end Cert.LibRowMax

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.LibSoftmaxShift.lean ====
/-
  The stable softmax on the extended reals, and its invariance under a common real shift.

  For finitely many scores l the weight of entry k is taken as
      exp (l k − max_j l j) / Σ_j exp (l j − max_j l j),
  the maximum running from −∞. Adding one real number e to every score changes nothing: the maximum moves by e too
  (adding a real is monotone and fixes −∞), so every difference l k − max_j l j stays as it was. On the extended reals
  this holds with no finiteness assumption on the scores, because an infinite score or maximum absorbs e on both sides
  of the difference. Generic in the number of scores.
-/
import Idealize.ShloMosaic.PureOps.Ideal
import Idealize.ShloMosaic.PureOps.Ideal.Laws

noncomputable section

open scoped BigOperators

namespace Cert.LibSoftmaxShift

open Idealize.ShloMosaic

/-- The f32 word of −∞ denotes the bottom of the extended reals. -/
theorem ofBits_neg_inf : Ideal.ofBits .f32 0xFF800000#32 = ⊥ := by
  simp [Ideal.ofBits, Ideal.ieee]

/-- The largest of finitely many extended reals, from −∞. -/
def top {K : Nat} (l : Fin K → EReal) : EReal := (Finset.univ : Finset (Fin K)).fold max ⊥ l

/-- The softmax weight of entry k among the scores l, in the stable form. -/
def weight {K : Nat} (l : Fin K → EReal) (k : Fin K) : EReal :=
  Ideal.div (Ideal.exp (l k - top l)) (∑ j : Fin K, Ideal.exp (l j - top l))

/-- A common real shift leaves a difference unchanged, whatever the two extended reals are. -/
theorem shift_sub (a b : EReal) (e : ℝ) : (a + (e : EReal)) - (b + (e : EReal)) = a - b := by
  induction a using EReal.rec with
  | bot =>
    induction b using EReal.rec with
    | bot => simp
    | top => simp
    | coe y => rw [EReal.bot_add, ← EReal.coe_add, EReal.bot_sub, EReal.bot_sub]
  | top =>
    induction b using EReal.rec with
    | bot => simp
    | top => simp
    | coe y => rw [EReal.top_add_coe, ← EReal.coe_add, EReal.top_sub_coe, EReal.top_sub_coe]
  | coe x =>
    induction b using EReal.rec with
    | bot => rw [EReal.bot_add, ← EReal.coe_add, EReal.coe_sub_bot, EReal.coe_sub_bot]
    | top =>
      rw [EReal.top_add_coe, ← EReal.coe_add, sub_eq_add_neg, sub_eq_add_neg, EReal.neg_top, EReal.add_bot,
        EReal.add_bot]
    | coe y =>
      rw [← EReal.coe_add, ← EReal.coe_add, ← EReal.coe_sub, ← EReal.coe_sub]
      exact congrArg _ (by ring)

/-- The maximum of shifted scores is the shifted maximum: adding a real is monotone and fixes −∞. -/
theorem top_shift {K : Nat} (l : Fin K → EReal) (e : ℝ) : top (fun k => l k + (e : EReal)) = top l + (e : EReal) := by
  unfold top
  have h := Finset.fold_hom (op := (max : EReal → EReal → EReal)) (op' := (max : EReal → EReal → EReal))
    (m := fun x : EReal => x + (e : EReal)) (s := (Finset.univ : Finset (Fin K))) (b := (⊥ : EReal)) (f := l)
    (fun x y => Monotone.map_max (f := fun x : EReal => x + (e : EReal)) (fun _ _ hxy => add_le_add hxy le_rfl))
  rw [EReal.bot_add] at h
  exact h

/-- The weights do not see a common real shift of the scores. -/
theorem weight_shift {K : Nat} (l : Fin K → EReal) (e : ℝ) (k : Fin K) :
    weight (fun j => l j + (e : EReal)) k = weight l k := by
  unfold weight
  simp only [top_shift, shift_sub]

end Cert.LibSoftmaxShift

end
-- ==== Proof.Payloads.lean ====
/-
  The arithmetic of the two kernel bodies, read at an index.

  Pass one's body, on one 1024 × 1024 tile of scores, holds per row p a running maximum m(p) and a running sum l(p),
  both kept as columns of shape [1024, 1]. Its values are:
    * the starting columns: every entry −∞ for the maximum, 0 for the sum;
    * the tile of scores: entry (p, q) is the inner product Σ_h a(p, h) · b(q, h) of row p of the left operand with
      row q of the right one (the product with the transpose, accumulated into the zero matrix);
    * the new maximum: max (m p) (max_q score (p, q)), the row maximum taken from −∞;
    * the new sum: exp (m p − m' p) · l p + Σ_q exp (score (p, q) − m' p), with m' the new maximum repeated along the row;
    * at the last tile, m p + log (l p).
  Pass two's body writes exp (score (p, q) − c p) for a stored column c.
  Each is a composition of pointwise operations (read at an index by unfolding), of a change of shape that keeps the
  row-major position, of the repetition of a column along its unit axis, and of a reduction over the last axis.
-/
import proofs.«152099_j38809324487097_1_alg».proof.Proof.Gen.KernelIdeal.Skeleton
import proofs.«152099_j38809324487097_1_alg».proof.Proof.Spec
import proofs.«152099_j38809324487097_1_alg».proof.Proof.LibMatmulNT
import proofs.«152099_j38809324487097_1_alg».proof.Proof.LibRowMax
import proofs.«152099_j38809324487097_1_alg».proof.Proof.LibRows
import proofs.«152099_j38809324487097_1_alg».proof.Proof.LibSoftmaxShift
import Idealize.ShloMosaic.Lib.ValueIdx
import Idealize.ShloMosaic.Lib.Pipeline.Value
import Idealize.ShloMosaic.PureOps.Ideal.Laws

noncomputable section

open scoped BigOperators

namespace Cert.TwoPass.Payloads

open Idealize.ShloMosaic Idealize.ShloMosaic.ValueIdx
open Cert.KernelIdeal Cert.KernelIdeal.Gen

/-! ## Columns -/

/-- Every index of a [1024, 1] column is (p, 0), so a function on the column's indices is known from its values there. -/
theorem col_ext {α : Type} {f g : S1024x1.Idx → α}
    (h : ∀ p : Fin 1024, f (ix2 p (0 : Fin 1)) = g (ix2 p (0 : Fin 1))) : f = g :=
  funext fun j => by
    have hj : j = ix2 (n0 := 1024) (n1 := 1) (j 0) (0 : Fin 1) :=
      (eq_ix2 j).trans (congrArg (ix2 (n0 := 1024) (n1 := 1) (j 0)) (Subsingleton.elim _ _))
    exact (congrArg f hj).trans ((h (j 0)).trans (congrArg g hj).symm)

/-! ## The non-pointwise steps, each at an index -/

/-- The row maximum of a 1024 × 1024 matrix from −∞, recast as a column, at (p, 0). -/
theorem rowmax_col_apply (src : FVec Ideal S1024x1024 .f32) (p : Fin 1024) (hφ : FKind.Formats .f32)
    (hacc : (0xFF800000#32 : BitVec 32) = 0xFF800000#32) :
    shapeCast S1024x1 (multiReduction .maximumf [1] S1024 src 0xFF800000#32 reduces_S1024x1024_S1024 hφ hacc)
        shapeCasts_S1024_S1024x1 (ix2 p (0 : Fin 1))
      = Cert.TwoPass.tileMax (fun q : Fin 1024 => src (ix2 p q)) :=
  (Cert.LibRows.col_cast_apply _ shapeCasts_S1024_S1024x1 p (0 : Fin 1)).trans
    ((Cert.LibRowMax.lane_max_last_apply src _ reduces_S1024x1024_S1024 hφ hacc p).trans
      (congrArg (fun b : EReal => (Finset.univ : Finset (Fin 1024)).fold max b (fun q : Fin 1024 => src (ix2 p q)))
        Cert.LibSoftmaxShift.ofBits_neg_inf))

/-- The row sum of a 1024 × 1024 matrix from zero, recast as a column, at (p, 0). -/
theorem rowsum_col_apply (src : FVec Ideal S1024x1024 .f32) (p : Fin 1024) (hφ : FKind.Formats .f32)
    (hacc : (0x00000000#32 : BitVec 32) = 0x00000000#32) :
    shapeCast S1024x1 (multiReduction .add [1] S1024 src 0x00000000#32 reduces_S1024x1024_S1024 hφ hacc)
        shapeCasts_S1024_S1024x1 (ix2 p (0 : Fin 1))
      = ∑ q : Fin 1024, src (ix2 p q) :=
  (Cert.LibRows.col_cast_apply _ shapeCasts_S1024_S1024x1 p (0 : Fin 1)).trans
    (Cert.LibRows.lane_sum_last_apply src reduces_S1024x1024_S1024 hφ hacc p)

/-- A column repeated along each row, at (p, q): the column's entry (p, 0). -/
theorem col_bcast_apply (c : FVec Ideal S1024x1 .f32) (p q : Fin 1024) :
    broadcastTo S1024x1024 c broadcasts_S1024x1_S1024x1024 (ix2 p q) = c (ix2 p (0 : Fin 1)) :=
  Cert.LibRows.bcast_col_apply c broadcasts_S1024x1_S1024x1024 p q

/-- The product of a 1024 × 1024 matrix with the transpose of another, into the zero matrix, at (p, q). -/
theorem scores_apply (x y : FVec Ideal S1024x1024 .bf16) (p q : Fin 1024) :
    matmul dot_S1024x1024_S1024x1024_S1024x1024_1_1_0_0_n_n none
        (shapeCast S1024x1024 x shapeCasts_S1024x1024_S1024x1024)
        (shapeCast S1024x1024 y shapeCasts_S1024x1024_S1024x1024)
        (constant (F := Ideal) S1024x1024 .f32 0x00000000#32) (ix2 p q)
      = ∑ h : Fin 1024, x (ix2 p h) * y (ix2 q h) := by
  rw [shapeCast_self, shapeCast_self]
  exact Cert.LibMatmulNT.matmul_nt_zero_apply (φ₁ := .bf16) (φ₂ := .bf16)
    dot_S1024x1024_S1024x1024_S1024x1024_1_1_0_0_n_n rfl none x y p q

/-! ## Pass one's values -/

theorem pay1_apply (p : Fin 1024) : k0_pay1 (F := Ideal) (ix2 p (0 : Fin 1)) = ⊥ :=
  (congrFun (shapeCast_self (broadcast S1024x1 (Scalar.ofBits (F := Ideal) .f32 0xFF800000#32))
    shapeCasts_S1024x1_S1024x1) (ix2 p (0 : Fin 1))).trans Cert.LibSoftmaxShift.ofBits_neg_inf

theorem pay2_apply (p : Fin 1024) : k0_pay2 (F := Ideal) (ix2 p (0 : Fin 1)) = 0 :=
  (congrFun (shapeCast_self (broadcast S1024x1 (Scalar.ofBits (F := Ideal) .f32 0x00000000#32))
    shapeCasts_S1024x1_S1024x1) (ix2 p (0 : Fin 1))).trans Ideal.ofBits_zero_f32

theorem pay3_apply (v3 v5 : Vec Ideal S1024x1024 .bf16) (p q : Fin 1024) :
    k0_pay3 (F := Ideal) v3 v5 (ix2 p q) = ∑ h : Fin 1024, v3 (ix2 p h) * v5 (ix2 q h) :=
  scores_apply v3 v5 p q

theorem pay4_eq (v3 v5 : Vec Ideal S1024x1024 .bf16) (v8 : Vec Ideal S1024x1 .f32) :
    k0_pay4 (F := Ideal) v3 v5 v8
      = maximumf v8 (shapeCast S1024x1 (multiReduction .maximumf [1] S1024 (k0_pay3 v3 v5) 0xFF800000#32
          reduces_S1024x1024_S1024 (.inl rfl) rfl) shapeCasts_S1024_S1024x1) := rfl

theorem pay4_apply (v3 v5 : Vec Ideal S1024x1024 .bf16) (v8 : Vec Ideal S1024x1 .f32) (p : Fin 1024) :
    k0_pay4 (F := Ideal) v3 v5 v8 (ix2 p (0 : Fin 1))
      = Cert.TwoPass.mNext (v8 (ix2 p (0 : Fin 1)))
          (fun q : Fin 1024 => ∑ h : Fin 1024, v3 (ix2 p h) * v5 (ix2 q h)) := by
  rw [pay4_eq, maximumf_apply, rowmax_col_apply]
  unfold Cert.TwoPass.mNext
  exact congrArg _ (congrArg _ (funext fun q => pay3_apply v3 v5 p q))

theorem pay5_eq (v3 v5 : Vec Ideal S1024x1024 .bf16) (v8 v12 v18 : Vec Ideal S1024x1 .f32) :
    k0_pay5 (F := Ideal) v3 v5 v8 v12 v18
      = shapeCast S1024x1
          (addf (mulf (exp (subf v12 (k0_pay4 v3 v5 v8))) v18)
            (shapeCast S1024x1
              (multiReduction .add [1] S1024
                (exp (subf (k0_pay3 v3 v5)
                  (broadcastTo S1024x1024 (k0_pay4 v3 v5 v8) broadcasts_S1024x1_S1024x1024)))
                0x00000000#32 reduces_S1024x1024_S1024 (.inl rfl) rfl)
              shapeCasts_S1024_S1024x1))
          shapeCasts_S1024x1_S1024x1 := rfl

theorem pay5_apply (v3 v5 : Vec Ideal S1024x1024 .bf16) (v8 v12 v18 : Vec Ideal S1024x1 .f32) (p : Fin 1024)
    (h8 : v12 = v8) :
    k0_pay5 (F := Ideal) v3 v5 v8 v12 v18 (ix2 p (0 : Fin 1))
      = Cert.TwoPass.lNext (v8 (ix2 p (0 : Fin 1))) (v18 (ix2 p (0 : Fin 1)))
          (fun q : Fin 1024 => ∑ h : Fin 1024, v3 (ix2 p h) * v5 (ix2 q h)) := by
  subst h8
  rw [pay5_eq, shapeCast_self, addf_apply, rowsum_col_apply]
  unfold Cert.TwoPass.lNext
  rw [← pay4_apply v3 v5 v12 p]
  refine congrArg₂ (fun a b : EReal => a + b) rfl (Finset.sum_congr rfl fun q _ => ?_)
  show Ideal.exp (k0_pay3 v3 v5 (ix2 p q)
      - broadcastTo S1024x1024 (k0_pay4 v3 v5 v12) broadcasts_S1024x1_S1024x1024 (ix2 p q)) = _
  rw [col_bcast_apply, pay3_apply]

theorem pay6_apply (v3 v5 : Vec Ideal S1024x1024 .bf16) (v8 : Vec Ideal S1024x1 .f32) (p : Fin 1024) :
    k0_pay6 (F := Ideal) v3 v5 v8 (ix2 p (0 : Fin 1))
      = Cert.TwoPass.mNext (v8 (ix2 p (0 : Fin 1)))
          (fun q : Fin 1024 => ∑ h : Fin 1024, v3 (ix2 p h) * v5 (ix2 q h)) :=
  (congrFun (shapeCast_self (k0_pay4 v3 v5 v8) shapeCasts_S1024x1_S1024x1) (ix2 p (0 : Fin 1))).trans
    (pay4_apply v3 v5 v8 p)

theorem pay7_apply (v32 v33 : Vec Ideal S1024x1 .f32) (p : Fin 1024) :
    k0_pay7 (F := Ideal) v32 v33 (ix2 p (0 : Fin 1))
      = v32 (ix2 p (0 : Fin 1)) + Ideal.log (v33 (ix2 p (0 : Fin 1))) := rfl

/-! ## Pass two's value -/

theorem out_eq (v0 v2 : Vec Ideal S1024x1024 .bf16) (v5 : Vec Ideal S1024x1 .f32) :
    k1_pay1 (F := Ideal) v0 v2 v5
      = exp (subf
          (matmul (φ₁ := .bf16) (φ₂ := .bf16) dot_S1024x1024_S1024x1024_S1024x1024_1_1_0_0_n_n none
            (shapeCast S1024x1024 v0 shapeCasts_S1024x1024_S1024x1024)
            (shapeCast S1024x1024 v2 shapeCasts_S1024x1024_S1024x1024)
            (constant (F := Ideal) S1024x1024 .f32 0x00000000#32))
          (broadcastTo S1024x1024 (shapeCast S1024x1 v5 shapeCasts_S1024x1_S1024x1)
            broadcasts_S1024x1_S1024x1024)) := rfl

theorem out_apply (v0 v2 : Vec Ideal S1024x1024 .bf16) (v5 : Vec Ideal S1024x1 .f32) (p q : Fin 1024) :
    k1_pay1 (F := Ideal) v0 v2 v5 (ix2 p q)
      = Ideal.exp ((∑ h : Fin 1024, v0 (ix2 p h) * v2 (ix2 q h)) - v5 (ix2 p (0 : Fin 1))) := by
  rw [out_eq]
  show Ideal.exp (matmul (φ₁ := .bf16) (φ₂ := .bf16) dot_S1024x1024_S1024x1024_S1024x1024_1_1_0_0_n_n none
            (shapeCast S1024x1024 v0 shapeCasts_S1024x1024_S1024x1024)
            (shapeCast S1024x1024 v2 shapeCasts_S1024x1024_S1024x1024)
            (constant (F := Ideal) S1024x1024 .f32 0x00000000#32) (ix2 p q)
          - broadcastTo S1024x1024 (shapeCast S1024x1 v5 shapeCasts_S1024x1_S1024x1)
            broadcasts_S1024x1_S1024x1024 (ix2 p q)) = _
  rw [scores_apply, col_bcast_apply, shapeCast_self]

end Cert.TwoPass.Payloads

end
-- ==== Proof.KIValue2.lean ====
/-
  The second pass's result array, from blocks to the whole array.

  The second pass visits an 8 × 8 grid of 1024 × 1024 blocks of the result. At block (i, j) it is handed rows
  1024 i … of the left operand, rows 1024 j … of the right operand and the entries 1024 i … of the column the first pass
  recorded, and writes the exponential of each score of the block less its row's recorded value. Every entry (r, k) of the
  result lies in exactly the block (r / 1024, k / 1024), at the place (r % 1024, k % 1024) inside it, so after the last
  block the whole array holds, at (r, k), the exponential of the inner product of row r of the left operand with row k
  of the right operand, less the recorded value of row r.
-/
import proofs.«152099_j38809324487097_1_alg».proof.Proof.KIPass2
import proofs.«152099_j38809324487097_1_alg».proof.Proof.Spec
import proofs.«152099_j38809324487097_1_alg».proof.Proof.Payloads
import Idealize.ShloMosaic.Lib.Pipeline.Value
import Idealize.ShloMosaic.Lib.ValueIdx

noncomputable section

namespace Cert.KernelIdeal.Value2

open Cert.KernelIdeal Cert.KernelIdeal.Gen Cert.KernelIdeal.Pass2
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The whole-block rectangles start at the origin. -/
theorem origin : (![0, 0] : Fin 2 → Nat) = fun _ => 0 := funext fun a => by fin_cases a <;> rfl

/-- The whole result array as one function of the three arrays the second pass reads: at (r, k) the exponential of
    the score of row r against row k, less the value recorded for row r. -/
def G (a b : S8192x1024.Idx → EReal) (l : S8192x1.Idx → EReal) : S8192x8192.Idx → EReal := fun idx =>
  Ideal.exp ((∑ h : Fin 1024, a (ix2 ⟨(idx 0).val, (idx 0).isLt⟩ h) * b (ix2 ⟨(idx 1).val, (idx 1).isLt⟩ h))
    - l (ix2 ⟨(idx 0).val, (idx 0).isLt⟩ (0 : Fin 1)))

theorem G_apply (a b : S8192x1024.Idx → EReal) (l : S8192x1.Idx → EReal) (r k : Fin 8192) :
    G a b l (ix2 r k) = Ideal.exp ((∑ h : Fin 1024, a (ix2 r h) * b (ix2 k h)) - l (ix2 r (0 : Fin 1))) := rfl

/-- The block indices at grid point t = 8 i + j: the left operand's and the recorded column's row block is i, the
    right operand's row block is j, the result's block is (i, j). -/
theorem block_indices : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = t.val % 8 :=
  (by decide +kernel : ∀ t : Fin grid1.N, _)

/-- What grid point t writes back is block t of the one whole-array function. -/
theorem flushed_eq (c : Dev nD) (t : Fin cfg1.N) :
    (dat1 (F := Ideal) V c).flushed 3 t
      = ((cfg1.win 3).blk t).view.read (Elt Ideal) (G (V c main_v0) (V c main_v1) (V c main_v2)) := by
  show (cfg1.win 3).cut (grid1.coords t) ((dat1 (F := Ideal) V c).after 3 t) = _
  rw [after1_3]
  unfold out1_3
  rw [View.canon_unit_zero origin]
  simp only [View.ld_unit_zero (S := S1024x1024) origin, View.ld_unit_zero (S := S1024x1) origin]
  refine funext fun (j : S1024x1024.Idx) => ?_
  obtain ⟨p, q, rfl⟩ : ∃ (p q : Fin 1024), j = ix2 p q := ⟨j 0, j 1, eq_ix2 j⟩
  obtain ⟨e00, e01, e10, e11, e20, e21, e30, e31⟩ := block_indices t
  have ht : t.val < 64 := t.isLt
  have hp : p.val < 1024 := p.isLt
  have hq : q.val < 1024 := q.isLt
  have e3 : ((cfg1.win 3).blk t).view.emb (ix2 p q)
      = ix2 (⟨t.val / 8 * 1024 + p.val, by omega⟩ : Fin 8192) (⟨t.val % 8 * 1024 + q.val, by omega⟩ : Fin 8192) :=
    funext fun a => Fin.ext (by
      match a with
      | ⟨0, _⟩ => show win1_3.index t (0 : Fin 2) * 1024 + 1 * p.val = t.val / 8 * 1024 + p.val; omega
      | ⟨1, _⟩ => show win1_3.index t (1 : Fin 2) * 1024 + 1 * q.val = t.val % 8 * 1024 + q.val; omega)
  show k1_pay1 (F := Ideal) (iblk1 V c 0 t) (iblk1 V c 1 t) (iblk1 V c 2 t) (ix2 p q)
      = G (V c main_v0) (V c main_v1) (V c main_v2) (((cfg1.win 3).blk t).view.emb (ix2 p q))
  refine Eq.trans ?_ (congrArg (G (V c main_v0) (V c main_v1) (V c main_v2)) e3.symm)
  refine (Cert.TwoPass.Payloads.out_apply _ _ _ p q).trans ?_
  refine Eq.trans ?_ (G_apply _ _ _ _ _).symm
  have hh : ∀ h : Fin 1024, h.val < 1024 := fun h => h.isLt
  refine congrArg Ideal.exp (congrArg₂ (fun a b : EReal => a - b)
    (Finset.sum_congr rfl fun h _ => congrArg₂ (fun a b : EReal => a * b) ?_ ?_) ?_)
  · show V c main_v0 (((cfg1.win 0).blk t).view.emb (ix2 p h))
        = V c main_v0 (ix2 (⟨t.val / 8 * 1024 + p.val, by omega⟩ : Fin 8192) h)
    refine congrArg (V c main_v0) (funext fun a => Fin.ext ?_)
    match a with
    | ⟨0, _⟩ => show win1_0.index t (0 : Fin 2) * 1024 + 1 * p.val = t.val / 8 * 1024 + p.val; omega
    | ⟨1, _⟩ => show win1_0.index t (1 : Fin 2) * 1024 + 1 * h.val = h.val; omega
  · show V c main_v1 (((cfg1.win 1).blk t).view.emb (ix2 q h))
        = V c main_v1 (ix2 (⟨t.val % 8 * 1024 + q.val, by omega⟩ : Fin 8192) h)
    refine congrArg (V c main_v1) (funext fun a => Fin.ext ?_)
    match a with
    | ⟨0, _⟩ => show win1_1.index t (0 : Fin 2) * 1024 + 1 * q.val = t.val % 8 * 1024 + q.val; omega
    | ⟨1, _⟩ => show win1_1.index t (1 : Fin 2) * 1024 + 1 * h.val = h.val; omega
  · show V c main_v2 (((cfg1.win 2).blk t).view.emb (ix2 p (0 : Fin 1)))
        = V c main_v2 (ix2 (⟨t.val / 8 * 1024 + p.val, by omega⟩ : Fin 8192) (0 : Fin 1))
    refine congrArg (V c main_v2) (funext fun a => Fin.ext ?_)
    match a with
    | ⟨0, _⟩ => show win1_2.index t (0 : Fin 2) * 1024 + 1 * p.val = t.val / 8 * 1024 + p.val; omega
    | ⟨1, _⟩ => show win1_2.index t (1 : Fin 2) * 1 + 1 * 0 = 0; omega

/-- An index of the array is in point t's block iff each coordinate is in the block's range on its axis. -/
theorem mem_blk (t : Fin cfg1.N) (i : S8192x8192.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v3).slice (win1_3.rect t)).set ↔ _
  rw [View.set_slice_whole, Rect.mem_set_unit]
  exact Iff.rfl

/-- Every entry (r, k) of the array lies in the block of the grid point 8 (r / 1024) + k / 1024, which is written back. -/
theorem covered (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  have hlt : 8 * ((i 0).val / 1024) + (i 1).val / 1024 < 64 := by omega
  obtain ⟨t, tv⟩ : ∃ t : Fin cfg1.N, t.val = 8 * ((i 0).val / 1024) + (i 1).val / 1024 := ⟨⟨_, hlt⟩, rfl⟩
  obtain ⟨-, -, -, -, -, -, e30, e31⟩ := block_indices t
  refine ⟨t, flush1_3 t, ?_⟩
  rw [mem_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- After the last grid point the result array holds the one whole-array function. -/
theorem final_array (c : Dev nD) :
    (dat1 (F := Ideal) V c).arrAt 3 cfg1.N = G (V c main_v0) (V c main_v1) (V c main_v2) :=
  (dat1 (F := Ideal) V c).arrAt_eq_of_cover 3 (G (V c main_v0) (V c main_v1) (V c main_v2))
    (fun t _ => flushed_eq V c t) covered

/-- The three arrays the second pass reads, as functions into the extended reals: the left operand, the right operand,
    and the column the first pass recorded. -/
abbrev left (c : Dev nD) : S8192x1024.Idx → EReal := V c main_v0
abbrev right (c : Dev nD) : S8192x1024.Idx → EReal := V c main_v1
abbrev recorded (c : Dev nD) : S8192x1.Idx → EReal := V c main_v2

/-- Entry (r, k) of the second pass's result: the exponential of the score of row r of the left operand against row k
    of the right operand, less the value the first pass recorded for row r. -/
theorem final_out (c : Dev nD) (r k : Fin 8192) :
    (dat1 (F := Ideal) V c).arrAt 3 cfg1.N (ix2 r k)
      = Ideal.exp ((∑ h : Fin 1024, left V c (ix2 r h) * right V c (ix2 k h)) - recorded V c (ix2 r (0 : Fin 1))) :=
  (congrFun (final_array V c) (ix2 r k)).trans (G_apply _ _ _ r k)

/-- The same over three named arrays equal to the region-entry contents. -/
theorem final_out_of (c : Dev nD) (a b : S8192x1024.Idx → EReal) (l : S8192x1.Idx → EReal)
    (ha : left V c = a) (hb : right V c = b) (hl : recorded V c = l) (r k : Fin 8192) :
    (dat1 (F := Ideal) V c).arrAt 3 cfg1.N (ix2 r k)
      = Ideal.exp ((∑ h : Fin 1024, a (ix2 r h) * b (ix2 k h)) - l (ix2 r (0 : Fin 1))) := by
  subst ha hb hl
  exact final_out V c r k

end Cert.KernelIdeal.Value2

end
-- ==== Proof.Tiles.lean ====
/-
  Two facts about pass one that do not depend on the scores being real.

  First, tile j < 8 of a row, at place q, is the row's column 1024 j + q. Second, the running pair is determined tile by
  tile: two sequences that start at (−∞, 0) and move, on each of the first N tiles, by the rule
      m' = max m (max of the tile),      l' = exp (m − m') · l + Σ_q exp (x q − m'),
  are, up to N, the running maximum and the running sum themselves.
-/
import proofs.«152099_j38809324487097_1_alg».proof.Proof.Spec

noncomputable section

namespace Cert.TwoPass

open Idealize.ShloMosaic

/-- Tile j < 8 of a row of 8192 scores, at place q, is column 1024 j + q. -/
theorem tiles_lt (σ : Fin 8192 → EReal) {j : Nat} (hj : j < 8) (q : Fin 1024) :
    tiles σ j q = σ ⟨1024 * j + q.val, by have := q.isLt; omega⟩ :=
  dif_pos hj

/-- Sequences that start at (−∞, 0) and follow the step rule on the first N tiles are the running pair up to N. -/
theorem acc_unique_le {C : Nat} (s : Nat → Fin C → EReal) (m l : Nat → EReal) (N : Nat)
    (hm0 : m 0 = ⊥) (hl0 : l 0 = 0)
    (hstep : ∀ n, n < N → m (n + 1) = mNext (m n) (s n) ∧ l (n + 1) = lNext (m n) (l n) (s n)) :
    ∀ n, n ≤ N → (m n, l n) = acc s n := by
  intro n
  induction n with
  | zero => intro _; rw [acc_zero, hm0, hl0]
  | succ n ih =>
    intro hn
    have h := ih (Nat.le_of_succ_le hn)
    obtain ⟨h1, h2⟩ := hstep n hn
    rw [acc_succ, ← h, h1, h2]

/-- Sequences that start at (−∞, 0) and follow the step rule on the eight tiles end at the running pair, and what
    pass one records is their last maximum plus the logarithm of their last sum. -/
theorem acc_unique {C : Nat} (s : Nat → Fin C → EReal) (m l : Nat → EReal)
    (hm0 : m 0 = ⊥) (hl0 : l 0 = 0)
    (hstep : ∀ n, n < 8 → m (n + 1) = mNext (m n) (s n) ∧ l (n + 1) = lNext (m n) (l n) (s n)) :
    (m 8, l 8) = acc s 8 ∧ lse s 8 = m 8 + Ideal.log (l 8) := by
  have h := acc_unique_le s m l 8 hm0 hl0 hstep 8 le_rfl
  refine ⟨h, ?_⟩
  rw [lse, ← h]

end Cert.TwoPass

end
-- ==== Proof.KIValue1.lean ====
/-
  What the first pass leaves in the column it records.

  The first pass visits an 8 × 8 grid of points t = 8 i + j. At point t it is handed rows 1024 i … of the left operand
  and rows 1024 j … of the right operand, so the scores it forms for its row p are tile j of the scores of row
  1024 i + p of the whole product. Its two running buffers hold, per row, a running maximum and a running sum; at j = 0
  they restart from (−∞, 0), at every j the tile is folded in, and at j = 7 maximum + log sum is stored into block i of
  the recorded column, which is written back there and nowhere else.

  First, per control case, what the body leaves in each buffer is read back from the stores the run found: each buffer's
  last store covers it whole, so the buffer ends at that store's value, whose loads read either the buffer's entry
  contents or (at j = 0) the value the reset has just stored. Then, by induction on the point, after point t the two
  running buffers hold at row p the running pair of row 1024 i + p after j + 1 tiles. At j = 7 the stored block is
  therefore the row's recorded value after all eight tiles, and since the blocks written back at the points 8 i + 7
  tile the column, the column ends holding that value at every row.
-/
import proofs.«152099_j38809324487097_1_alg».proof.Proof.KIData1
import proofs.«152099_j38809324487097_1_alg».proof.Proof.Spec
import proofs.«152099_j38809324487097_1_alg».proof.Proof.Tiles
import proofs.«152099_j38809324487097_1_alg».proof.Proof.Payloads
import Idealize.ShloMosaic.Lib.Pipeline.Value
import Idealize.ShloMosaic.Lib.ValueIdx
import Idealize.ShloMosaic.Lib.Tactic

set_option maxRecDepth 16384

noncomputable section

namespace Cert.KernelIdeal.Value1

open Cert.KernelIdeal Cert.KernelIdeal.Gen Cert.KernelIdeal.Pass1
open Idealize.ShloMosaic Idealize.ShloMosaic.TcCoe Idealize.SL.Sem Idealize.ShloMosaic.ValueIdx Idealize.ShloMosaic.Tactic
open Idealize.ShloMosaic.Pipeline (Dat)

variable {F : FTy → Type} [FloatOps F]

/-- The whole-block rectangles start at the origin. -/
theorem origin : (![0, 0] : Fin 2 → Nat) = fun _ => 0 := funext fun a => by fin_cases a <;> rfl

section Pieces
variable (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole)

/-- A middle tile leaves in the running maximum's buffer the new maximum of what it held and the tile. -/
theorem leftB_max (hc0 : ¬cond0_0 i) (hc1 : ¬cond0_1 i) (x0 x1 : Vec F S1024x1024 .bf16) (xs0 xs1 : Vec F S1024x1 .f32) :
    (leftB c i arg2 harg2 arg3 harg3 arg4 harg4 scM0 (Memref.isWhole_whole _) scM1 (Memref.isWhole_whole _) hc0 hc1 x0 x1 xs0 xs1).2.1 = k0_pay6 x0 x1 xs0 := by
  unfold leftB
  dsimp only
  rw [View.read_writes_eq_canon _ _ _ (scoverB_0 c i arg2 harg2 arg3 harg3 arg4 harg4 scM0 (Memref.isWhole_whole _) scM1 (Memref.isWhole_whole _) hc0 hc1 x0 x1 xs0 xs1)]
  unfold kernelRun0_B
  dsimp only
  sl_unfold_words
  rw [View.canon_unit_zero origin]
  simp only [View.readAt_eq_ld, harg2.read_unread, harg3.read_unread, (Memref.isWhole_whole cc0_scratch0).read_unread,
    View.ld_unit_zero (S := S1024x1024) origin, View.ld_unit_zero (S := S1024x1) origin]

/-- A middle tile leaves in the running sum's buffer the rescaled sum plus the tile's. -/
theorem leftB_sum (hc0 : ¬cond0_0 i) (hc1 : ¬cond0_1 i) (x0 x1 : Vec F S1024x1024 .bf16) (xs0 xs1 : Vec F S1024x1 .f32) :
    (leftB c i arg2 harg2 arg3 harg3 arg4 harg4 scM0 (Memref.isWhole_whole _) scM1 (Memref.isWhole_whole _) hc0 hc1 x0 x1 xs0 xs1).2.2 = k0_pay5 x0 x1 xs0 xs0 xs1 := by
  unfold leftB
  dsimp only
  rw [View.read_writes_eq_canon _ _ _ (scoverB_1 c i arg2 harg2 arg3 harg3 arg4 harg4 scM0 (Memref.isWhole_whole _) scM1 (Memref.isWhole_whole _) hc0 hc1 x0 x1 xs0 xs1)]
  unfold kernelRun0_B
  dsimp only
  sl_unfold_words
  rw [View.canon_unit_zero origin]
  simp only [View.readAt_eq_ld, harg2.read_unread, harg3.read_unread, (Memref.isWhole_whole cc0_scratch0).read_unread,
    (Memref.isWhole_whole cc0_scratch1).read_unread,
    View.ld_unit_zero (S := S1024x1024) origin, View.ld_unit_zero (S := S1024x1) origin]

/-- The last tile leaves the two running buffers as a middle tile does. -/
theorem leftC_max (hc0 : ¬cond0_0 i) (hc1 : cond0_1 i) (x0 x1 : Vec F S1024x1024 .bf16) (xs0 xs1 : Vec F S1024x1 .f32) :
    (leftC c i arg2 harg2 arg3 harg3 arg4 harg4 scM0 (Memref.isWhole_whole _) scM1 (Memref.isWhole_whole _) hc0 hc1 x0 x1 xs0 xs1).2.1 = k0_pay6 x0 x1 xs0 := by
  unfold leftC
  dsimp only
  rw [View.read_writes_eq_canon _ _ _ (scoverC_0 c i arg2 harg2 arg3 harg3 arg4 harg4 scM0 (Memref.isWhole_whole _) scM1 (Memref.isWhole_whole _) hc0 hc1 x0 x1 xs0 xs1)]
  unfold kernelRun0_C
  dsimp only
  sl_unfold_words
  rw [View.canon_unit_zero origin]
  simp only [View.readAt_eq_ld, harg2.read_unread, harg3.read_unread, (Memref.isWhole_whole cc0_scratch0).read_unread,
    View.ld_unit_zero (S := S1024x1024) origin, View.ld_unit_zero (S := S1024x1) origin]

theorem leftC_sum (hc0 : ¬cond0_0 i) (hc1 : cond0_1 i) (x0 x1 : Vec F S1024x1024 .bf16) (xs0 xs1 : Vec F S1024x1 .f32) :
    (leftC c i arg2 harg2 arg3 harg3 arg4 harg4 scM0 (Memref.isWhole_whole _) scM1 (Memref.isWhole_whole _) hc0 hc1 x0 x1 xs0 xs1).2.2 = k0_pay5 x0 x1 xs0 xs0 xs1 := by
  unfold leftC
  dsimp only
  rw [View.read_writes_eq_canon _ _ _ (scoverC_1 c i arg2 harg2 arg3 harg3 arg4 harg4 scM0 (Memref.isWhole_whole _) scM1 (Memref.isWhole_whole _) hc0 hc1 x0 x1 xs0 xs1)]
  unfold kernelRun0_C
  dsimp only
  sl_unfold_words
  rw [View.canon_unit_zero origin]
  simp only [View.readAt_eq_ld, harg2.read_unread, harg3.read_unread, (Memref.isWhole_whole cc0_scratch0).read_unread,
    (Memref.isWhole_whole cc0_scratch1).read_unread,
    View.ld_unit_zero (S := S1024x1024) origin, View.ld_unit_zero (S := S1024x1) origin]

/-- The last tile leaves in the output block the new maximum plus the logarithm of the new sum. -/
theorem leftC_out (hc0 : ¬cond0_0 i) (hc1 : cond0_1 i) (x0 x1 : Vec F S1024x1024 .bf16) (xs0 xs1 : Vec F S1024x1 .f32) :
    (leftC c i arg2 harg2 arg3 harg3 arg4 harg4 scM0 (Memref.isWhole_whole _) scM1 (Memref.isWhole_whole _) hc0 hc1 x0 x1 xs0 xs1).1 = k0_pay7 (k0_pay6 x0 x1 xs0) (k0_pay5 x0 x1 xs0 xs0 xs1) := by
  unfold leftC
  dsimp only
  rw [View.read_writes_eq_canon _ _ _ (coverC_2 c i arg2 harg2 arg3 harg3 arg4 harg4 scM0 (Memref.isWhole_whole _) scM1 (Memref.isWhole_whole _) hc0 hc1 x0 x1 xs0 xs1)]
  unfold kernelRun0_C
  dsimp only
  sl_unfold_words
  rw [View.canon_unit_zero origin]
  simp only [View.readCov_unit_zero (S := S1024x1) _ origin, View.readAt_eq_ld, harg2.read_unread, harg3.read_unread,
    (Memref.isWhole_whole cc0_scratch0).read_unread, (Memref.isWhole_whole cc0_scratch1).read_unread,
    View.ld_unit_zero (S := S1024x1024) origin, View.ld_unit_zero (S := S1024x1) origin]

/-- The first tile folds into what the reset has just stored: the maximum's buffer. -/
theorem leftA_max (hc0 : cond0_0 i) (hc1 : ¬cond0_1 i) (x0 x1 : Vec F S1024x1024 .bf16) :
    (leftA c i arg2 harg2 arg3 harg3 arg4 harg4 scM0 (Memref.isWhole_whole _) scM1 (Memref.isWhole_whole _) hc0 hc1 x0 x1).2.1 = k0_pay6 x0 x1 k0_pay1 := by
  unfold leftA
  dsimp only
  rw [View.read_writes_eq_canon _ _ _ (scoverA_0 c i arg2 harg2 arg3 harg3 arg4 harg4 scM0 (Memref.isWhole_whole _) scM1 (Memref.isWhole_whole _) hc0 hc1 x0 x1)]
  unfold kernelRun0_A
  dsimp only
  sl_unfold_words
  rw [View.canon_cons_unit_zero (S := S1024x1) origin]
  simp only [View.readCov_unit_zero (S := S1024x1) _ origin, View.readAt_eq_ld, harg2.read_unread, harg3.read_unread,
    View.ld_unit_zero (S := S1024x1024) origin]

/-- The first tile folds into what the reset has just stored: the sum's buffer. -/
theorem leftA_sum (hc0 : cond0_0 i) (hc1 : ¬cond0_1 i) (x0 x1 : Vec F S1024x1024 .bf16) :
    (leftA c i arg2 harg2 arg3 harg3 arg4 harg4 scM0 (Memref.isWhole_whole _) scM1 (Memref.isWhole_whole _) hc0 hc1 x0 x1).2.2 = k0_pay5 x0 x1 k0_pay1 k0_pay1 k0_pay2 := by
  unfold leftA
  dsimp only
  rw [View.read_writes_eq_canon _ _ _ (scoverA_1 c i arg2 harg2 arg3 harg3 arg4 harg4 scM0 (Memref.isWhole_whole _) scM1 (Memref.isWhole_whole _) hc0 hc1 x0 x1)]
  unfold kernelRun0_A
  dsimp only
  sl_unfold_words
  rw [View.canon_cons_unit_zero (S := S1024x1) origin]
  simp only [View.readCov_unit_zero (S := S1024x1) _ origin, View.readAt_eq_ld, harg2.read_unread, harg3.read_unread,
    View.ld_unit_zero (S := S1024x1024) origin]

end Pieces

/-! ## The blocks the body is handed, and the scores it forms -/

section Value
variable (V : (c : Dev nD) → (b : Ref sig .tc) → Buf (Elt Ideal) ((c : Thread nD τ).loc b))

open Cert.TwoPass Cert.TwoPass.Payloads

/-- The two operands as the region finds them, as functions into the extended reals. -/
abbrev left (c : Dev nD) : S8192x1024.Idx → EReal := V c main_v0
abbrev right (c : Dev nD) : S8192x1024.Idx → EReal := V c main_v1

/-- The scores of row r of the left operand against every row of the right operand. -/
def rowScores (c : Dev nD) (r : Fin 8192) : Fin 8192 → EReal :=
  fun k => ∑ h : Fin 1024, left V c (ix2 r h) * right V c (ix2 k h)

/-- The block indices at grid point t = 8 i + j: the left operand's and the recorded column's row block is i, the right
    operand's row block is j. -/
theorem block_indices : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The row of the whole product that row p of the body's tile is, at grid point t. -/
def rowOf (t : Fin cfg0.N) (p : Fin 1024) : Fin 8192 :=
  ⟨1024 * (t.val / 8) + p.val, by have ht : t.val < 64 := t.isLt; have := p.isLt; omega⟩

/-- The scores the body forms for row p of its tile from the two blocks it is handed. -/
def tileScores (b0 b1 : Vec Ideal S1024x1024 .bf16) (p : Fin 1024) : Fin 1024 → EReal :=
  fun q => ∑ h : Fin 1024, b0 (ix2 p h) * b1 (ix2 q h)

/-- The scores the body forms for its row p at grid point t are tile t % 8 of the scores of row 1024 (t / 8) + p. -/
theorem tile_scores (c : Dev nD) (t : Fin cfg0.N) (p : Fin 1024) :
    tileScores (iblk0 V c 0 t) (iblk0 V c 1 t) p = tiles (rowScores V c (rowOf t p)) (t.val % 8) := by
  obtain ⟨e00, e01, e10, e11, -, -⟩ := block_indices t
  have ht : t.val < 64 := t.isLt
  have hp : p.val < 1024 := p.isLt
  funext q
  have hq : q.val < 1024 := q.isLt
  rw [tiles_lt _ (by omega : t.val % 8 < 8) q]
  unfold rowScores tileScores
  refine Finset.sum_congr rfl fun h _ => congrArg₂ (fun a b : EReal => a * b) ?_ ?_
  · show V c main_v0 (((cfg0.win 0).blk t).view.emb (ix2 p h)) = V c main_v0 (ix2 (rowOf t p) h)
    refine congrArg (V c main_v0) (funext fun a => Fin.ext ?_)
    match a with
    | ⟨0, _⟩ => show win0_0.index t (0 : Fin 2) * 1024 + 1 * p.val = 1024 * (t.val / 8) + p.val; omega
    | ⟨1, _⟩ => show win0_0.index t (1 : Fin 2) * 1024 + 1 * h.val = h.val; omega
  · show V c main_v1 (((cfg0.win 1).blk t).view.emb (ix2 q h))
        = V c main_v1 (ix2 (⟨1024 * (t.val % 8) + q.val, by omega⟩ : Fin 8192) h)
    refine congrArg (V c main_v1) (funext fun a => Fin.ext ?_)
    match a with
    | ⟨0, _⟩ => show win0_1.index t (0 : Fin 2) * 1024 + 1 * q.val = 1024 * (t.val % 8) + q.val; omega
    | ⟨1, _⟩ => show win0_1.index t (1 : Fin 2) * 1024 + 1 * h.val = h.val; omega

/-! ## What a point leaves, case by case, as values of the body's arithmetic -/

/-- At the first tile of a row block the two running buffers end at the fold of the tile into (−∞, 0). -/
theorem stepAt_first (c : Dev nD) (t : Fin cfg0.N) (prev : Vec Ideal S1024x1 .f32 × Vec Ideal S1024x1 .f32)
    (h0 : t.val % 8 = 0) :
    (stepAt V c t prev).2.1 = k0_pay6 (F := Ideal) (iblk0 V c 0 t) (iblk0 V c 1 t) (k0_pay1 (F := Ideal))
      ∧ (stepAt V c t prev).2.2 = k0_pay5 (F := Ideal) (iblk0 V c 0 t) (iblk0 V c 1 t) (k0_pay1 (F := Ideal)) (k0_pay1 (F := Ideal)) (k0_pay2 (F := Ideal)) := by
  have hc1 : ¬cond0_1 (grid0.coords t) := fun h => by have := (hcond0_1 t).mp h; omega
  have e := stepAt_A V c t prev h0 hc1
  exact ⟨(congrArg (fun x => x.2.1) e).trans
      (leftA_max c (grid0.coords t) (ms0_0 t) (hs0_0 t) (ms0_1 t) (hs0_1 t) (ms0_2 t) (hs0_2 t)
        ((hcond0_0 t).mpr h0) hc1 (iblk0 V c 0 t) (iblk0 V c 1 t)),
    (congrArg (fun x => x.2.2) e).trans
      (leftA_sum c (grid0.coords t) (ms0_0 t) (hs0_0 t) (ms0_1 t) (hs0_1 t) (ms0_2 t) (hs0_2 t)
        ((hcond0_0 t).mpr h0) hc1 (iblk0 V c 0 t) (iblk0 V c 1 t))⟩

/-- At every later tile the two running buffers end at the fold of the tile into what the point before left. -/
theorem stepAt_later (c : Dev nD) (t : Fin cfg0.N) (prev : Vec Ideal S1024x1 .f32 × Vec Ideal S1024x1 .f32)
    (h0 : ¬t.val % 8 = 0) :
    (stepAt V c t prev).2.1 = k0_pay6 (F := Ideal) (iblk0 V c 0 t) (iblk0 V c 1 t) prev.1
      ∧ (stepAt V c t prev).2.2 = k0_pay5 (F := Ideal) (iblk0 V c 0 t) (iblk0 V c 1 t) prev.1 prev.1 prev.2 := by
  by_cases h7 : t.val % 8 = 7
  · have e := stepAt_C V c t prev h0 h7
    exact ⟨(congrArg (fun x => x.2.1) e).trans
        (leftC_max c (grid0.coords t) (ms0_0 t) (hs0_0 t) (ms0_1 t) (hs0_1 t) (ms0_2 t) (hs0_2 t)
          (fun h => h0 ((hcond0_0 t).mp h)) ((hcond0_1 t).mpr h7) (iblk0 V c 0 t) (iblk0 V c 1 t) prev.1 prev.2),
      (congrArg (fun x => x.2.2) e).trans
        (leftC_sum c (grid0.coords t) (ms0_0 t) (hs0_0 t) (ms0_1 t) (hs0_1 t) (ms0_2 t) (hs0_2 t)
          (fun h => h0 ((hcond0_0 t).mp h)) ((hcond0_1 t).mpr h7) (iblk0 V c 0 t) (iblk0 V c 1 t) prev.1 prev.2)⟩
  · have e := stepAt_B V c t prev h0 h7
    exact ⟨(congrArg (fun x => x.2.1) e).trans
        (leftB_max c (grid0.coords t) (ms0_0 t) (hs0_0 t) (ms0_1 t) (hs0_1 t) (ms0_2 t) (hs0_2 t)
          (fun h => h0 ((hcond0_0 t).mp h)) (fun h => h7 ((hcond0_1 t).mp h)) (iblk0 V c 0 t) (iblk0 V c 1 t) prev.1 prev.2),
      (congrArg (fun x => x.2.2) e).trans
        (leftB_sum c (grid0.coords t) (ms0_0 t) (hs0_0 t) (ms0_1 t) (hs0_1 t) (ms0_2 t) (hs0_2 t)
          (fun h => h0 ((hcond0_0 t).mp h)) (fun h => h7 ((hcond0_1 t).mp h)) (iblk0 V c 0 t) (iblk0 V c 1 t) prev.1 prev.2)⟩

/-- At the last tile the output block ends at the new maximum plus the logarithm of the new sum. -/
theorem stepAt_last (c : Dev nD) (t : Fin cfg0.N) (prev : Vec Ideal S1024x1 .f32 × Vec Ideal S1024x1 .f32)
    (h0 : ¬t.val % 8 = 0) (h7 : t.val % 8 = 7) :
    (stepAt V c t prev).1 = k0_pay7 (F := Ideal) (stepAt V c t prev).2.1 (stepAt V c t prev).2.2 := by
  obtain ⟨e1, e2⟩ := stepAt_later V c t prev h0
  rw [e1, e2]
  exact (congrArg (fun x => x.1) (stepAt_C V c t prev h0 h7)).trans
    (leftC_out c (grid0.coords t) (ms0_0 t) (hs0_0 t) (ms0_1 t) (hs0_1 t) (ms0_2 t) (hs0_2 t)
      (fun h => h0 ((hcond0_0 t).mp h)) ((hcond0_1 t).mpr h7) (iblk0 V c 0 t) (iblk0 V c 1 t) prev.1 prev.2)

/-! ## The invariant: after point t the running buffers hold the running pair of each row -/

/-- One step at row p: from the first tile. -/
theorem step_first_apply (c : Dev nD) (t : Fin cfg0.N) (prev : Vec Ideal S1024x1 .f32 × Vec Ideal S1024x1 .f32)
    (h0 : t.val % 8 = 0) (p : Fin 1024) :
    ((stepAt V c t prev).2.1 (ix2 p (0 : Fin 1)), (stepAt V c t prev).2.2 (ix2 p (0 : Fin 1)))
      = acc (tiles (rowScores V c (rowOf t p))) 1 := by
  obtain ⟨e1, e2⟩ := stepAt_first V c t prev h0
  rw [e1, e2, acc_succ, acc_zero]
  have hs := tile_scores V c t p
  rw [h0] at hs
  refine Prod.ext ?_ ?_
  · refine (pay6_apply (iblk0 V c 0 t) (iblk0 V c 1 t) (k0_pay1 (F := Ideal)) p).trans ?_
    show mNext (k0_pay1 (F := Ideal) (ix2 p (0 : Fin 1))) _ = mNext ⊥ _
    rw [pay1_apply p]
    exact congrArg (mNext ⊥) hs
  · refine (pay5_apply (iblk0 V c 0 t) (iblk0 V c 1 t) (k0_pay1 (F := Ideal)) (k0_pay1 (F := Ideal)) (k0_pay2 (F := Ideal)) p rfl).trans ?_
    show lNext (k0_pay1 (F := Ideal) (ix2 p (0 : Fin 1))) (k0_pay2 (F := Ideal) (ix2 p (0 : Fin 1))) _ = lNext ⊥ 0 _
    rw [pay1_apply p, pay2_apply p]
    exact congrArg (lNext ⊥ 0) hs

/-- One step at row p: from what the point before left. -/
theorem step_later_apply (c : Dev nD) (t : Fin cfg0.N) (prev : Vec Ideal S1024x1 .f32 × Vec Ideal S1024x1 .f32)
    (h0 : ¬t.val % 8 = 0) (p : Fin 1024) :
    ((stepAt V c t prev).2.1 (ix2 p (0 : Fin 1)), (stepAt V c t prev).2.2 (ix2 p (0 : Fin 1)))
      = (mNext (prev.1 (ix2 p (0 : Fin 1))) (tiles (rowScores V c (rowOf t p)) (t.val % 8)),
         lNext (prev.1 (ix2 p (0 : Fin 1))) (prev.2 (ix2 p (0 : Fin 1))) (tiles (rowScores V c (rowOf t p)) (t.val % 8))) := by
  obtain ⟨e1, e2⟩ := stepAt_later V c t prev h0
  rw [e1, e2, ← tile_scores V c t p]
  exact Prod.ext (pay6_apply (iblk0 V c 0 t) (iblk0 V c 1 t) prev.1 p)
    (pay5_apply (iblk0 V c 0 t) (iblk0 V c 1 t) prev.1 prev.1 prev.2 p rfl)

/-- After point n = 8 i + j the two running buffers hold, at row p, the running pair of row 1024 i + p after j + 1 tiles. -/
theorem outs_inv (c : Dev nD) : ∀ (n : ℕ) (hn : n < cfg0.N) (p : Fin 1024),
    ((outsAt0 (F := Ideal) V c n hn).2.1 (ix2 p (0 : Fin 1)), (outsAt0 (F := Ideal) V c n hn).2.2 (ix2 p (0 : Fin 1)))
      = acc (tiles (rowScores V c (rowOf ⟨n, hn⟩ p))) (n % 8 + 1)
  | 0, hn, p => by
    rw [outsAt0_zero]
    exact step_first_apply V c ⟨0, hn⟩ _ rfl p
  | n + 1, hn, p => by
    rw [outsAt0_succ]
    by_cases h0 : (n + 1) % 8 = 0
    · rw [step_first_apply V c ⟨n + 1, hn⟩ _ h0 p, h0]
    · have hn64 : n + 1 < 64 := hn
      have ih := outs_inv c n (Nat.lt_of_succ_lt hn) p
      have hrow : rowOf ⟨n, Nat.lt_of_succ_lt hn⟩ p = rowOf ⟨n + 1, hn⟩ p :=
        Fin.ext (by show 1024 * (n / 8) + p.val = 1024 * ((n + 1) / 8) + p.val; omega)
      have hj : n % 8 + 1 = (n + 1) % 8 := by omega
      rw [hrow, hj] at ih
      rw [step_later_apply V c ⟨n + 1, hn⟩ _ h0 p, acc_succ, ← ih]

/-! ## The recorded column -/

/-- The whole recorded column as one function of the two operands: at row r, what pass one records for the scores of
    row r after all eight tiles. -/
def G (c : Dev nD) : S8192x1.Idx → EReal := fun idx =>
  lse (tiles (rowScores V c ⟨(idx 0).val, (idx 0).isLt⟩)) 8

theorem G_apply (c : Dev nD) (r : Fin 8192) : G V c (ix2 r (0 : Fin 1)) = lse (tiles (rowScores V c r)) 8 := rfl

/-- At the last tile of a row block, the output block holds at row p what pass one records for row 1024 i + p. -/
theorem out_last (c : Dev nD) (t : Fin cfg0.N) (h7 : t.val % 8 = 7) (p : Fin 1024) :
    (outsAt0 (F := Ideal) V c t.val t.isLt).1 (ix2 p (0 : Fin 1)) = lse (tiles (rowScores V c (rowOf t p))) 8 := by
  have hz : t.val ≠ 0 := by omega
  have h0 : ¬t.val % 8 = 0 := by omega
  have inv := outs_inv V c t.val t.isLt p
  rw [h7] at inv
  have e := outsAt0_pos V c t hz
  have e1 : (outsAt0 (F := Ideal) V c t.val t.isLt).1
      = k0_pay7 (F := Ideal) (outsAt0 (F := Ideal) V c t.val t.isLt).2.1 (outsAt0 (F := Ideal) V c t.val t.isLt).2.2 := by
    rw [e]
    exact stepAt_last V c t _ h0 h7
  rw [e1]
  refine (pay7_apply _ _ p).trans ?_
  unfold lse
  rw [← inv]

/-- What grid point t writes back is block t of the one whole-column function. -/
theorem flushed_eq (c : Dev nD) (t : Fin cfg0.N) (hf : (cfg0.win 2).flush t = true) :
    (dat0 (F := Ideal) V c).flushed 2 t = ((cfg0.win 2).blk t).view.read (Elt Ideal) (G V c) := by
  have h7 : t.val % 8 = 7 := (flush0_2 t).mp hf
  show (cfg0.win 2).cut (grid0.coords t) ((dat0 (F := Ideal) V c).after 2 t) = _
  rw [after0_2]
  refine col_ext fun p => ?_
  obtain ⟨-, -, -, -, e20, e21⟩ := block_indices t
  have ht : t.val < 64 := t.isLt
  have hp : p.val < 1024 := p.isLt
  have e3 : ((cfg0.win 2).blk t).view.emb (ix2 p (0 : Fin 1)) = ix2 (rowOf t p) (0 : Fin 1) :=
    funext fun a => Fin.ext (by
      match a with
      | ⟨0, _⟩ => show win0_2.index t (0 : Fin 2) * 1024 + 1 * p.val = 1024 * (t.val / 8) + p.val; omega
      | ⟨1, _⟩ => show win0_2.index t (1 : Fin 2) * 1 + 1 * 0 = 0; omega)
  show (outsAt0 (F := Ideal) V c t.val t.isLt).1 (ix2 p (0 : Fin 1)) = G V c (((cfg0.win 2).blk t).view.emb (ix2 p (0 : Fin 1)))
  refine Eq.trans ?_ (congrArg (G V c) e3.symm)
  exact (out_last V c t h7 p).trans (G_apply V c (rowOf t p)).symm

/-- An index of the column is in point t's block iff each coordinate is in the block's range on its axis. -/
theorem mem_blk (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v2).slice (win0_2.rect t)).set ↔ _
  rw [View.set_slice_whole, Rect.mem_set_unit]
  exact Iff.rfl

/-- Every row r of the column lies in the block of the grid point 8 (r / 1024) + 7, which is written back. -/
theorem covered (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hlt : 8 * ((i 0).val / 1024) + 7 < 64 := by omega
  obtain ⟨t, tv⟩ : ∃ t : Fin cfg0.N, t.val = 8 * ((i 0).val / 1024) + 7 := ⟨⟨_, hlt⟩, rfl⟩
  obtain ⟨-, -, -, -, e20, e21⟩ := block_indices t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1 ≤ (i 1).val ∧ (i 1).val < win0_2.index t (1 : Fin 2) * 1 + 1
    omega

/-- After the last grid point the recorded column holds the one whole-column function. -/
theorem final_array (c : Dev nD) : (dat0 (F := Ideal) V c).arrAt 2 cfg0.N = G V c :=
  (dat0 (F := Ideal) V c).arrAt_eq_of_cover 2 (G V c) (fun t hf => flushed_eq V c t hf) covered

/-- Row r of the recorded column: what pass one records for the scores of row r of the left operand against the rows
    of the right operand, after all eight tiles. -/
theorem final_lse (c : Dev nD) (r : Fin 8192) :
    (dat0 (F := Ideal) V c).arrAt 2 cfg0.N (ix2 r (0 : Fin 1)) = lse (tiles (rowScores V c r)) 8 :=
  (congrFun (final_array V c) (ix2 r (0 : Fin 1))).trans (G_apply V c r)

/-- The same over two named arrays equal to the operands as the region finds them. -/
theorem final_lse_of (c : Dev nD) (a b : S8192x1024.Idx → EReal)
    (ha : (V c main_v0 : S8192x1024.Idx → EReal) = a) (hb : (V c main_v1 : S8192x1024.Idx → EReal) = b) (r : Fin 8192) :
    (dat0 (F := Ideal) V c).arrAt 2 cfg0.N (ix2 r (0 : Fin 1)) = lse (tiles (score a b r)) 8 := by
  subst ha hb
  exact final_lse V c r

end Value

end Cert.KernelIdeal.Value1

end
-- ==== Proof.KIFinal.lean ====
/-
  The kernel's result array as one function of its arguments. The second pass leaves at (r, k) the exponential of the
  score of row r against row k less the value the first pass recorded for row r; the first pass recorded, for row r, the
  running maximum plus the logarithm of the running sum after the row's eight column tiles; and the two conversions that
  precede the passes change the format only, which is the identity on extended reals. Together: the two-pass function.
-/
import proofs.«152099_j38809324487097_1_alg».proof.Proof.KIWhole
import proofs.«152099_j38809324487097_1_alg».proof.Proof.KIValue2
import proofs.«152099_j38809324487097_1_alg».proof.Proof.KIValue1
import proofs.«152099_j38809324487097_1_alg».proof.Proof.Spec
import Idealize.ShloMosaic.Lib.StableHlo.Run
import Idealize.ShloMosaic.Lib.ValueIdx

noncomputable section

namespace Cert.KernelIdeal.Final

open Cert.KernelIdeal Cert.KernelIdeal.Gen Cert.KernelIdeal.Whole Cert.KernelIdeal.Pass1 Cert.KernelIdeal.Pass2 Cert.TwoPass
open Idealize.ShloMosaic Idealize.ShloMosaic.TcCoe Idealize.SL.Sem Idealize.ShloMosaic.ValueIdx

variable (m : (ℓ : Loc nD τ sig) → Buf (Elt Ideal) ℓ)

/-- The converted copy of the left argument is the argument: the change of format is the identity on extended reals. -/
theorem converted_left (c : Dev nD) :
    (Vh m c main_v0 : S8192x1024.Idx → EReal) = m ((c : Thread nD τ).loc main_arg0) := by
  dsimp only [Vh, Wh, hostOps0]; after_results; rfl

/-- The same for the right argument. -/
theorem converted_right (c : Dev nD) :
    (Vh m c main_v1 : S8192x1024.Idx → EReal) = m ((c : Thread nD τ).loc main_arg1) := by
  dsimp only [Vh, Wh, hostOps0]; after_results; rfl

/-- The kernel's result array is the two-pass function of its two arguments. -/
theorem result_eq (c : Dev nD) :
    (dat1 (F := Ideal) (Vp m) c).arrAt 3 cfg1.N
      = kernelOut (m ((c.tc : Thread nD τ).loc main_arg0)) (m ((c.tc : Thread nD τ).loc main_arg1)) := by
  funext idx
  obtain ⟨r, k, rfl⟩ : ∃ (r k : Fin 8192), idx = ix2 r k := ⟨idx 0, idx 1, eq_ix2 idx⟩
  rw [kernelOut_apply]
  refine (Cert.KernelIdeal.Value2.final_out_of (Vp m) c _ _ _
    ((Vp_main_v0 m c).trans (converted_left m c)) ((Vp_main_v1 m c).trans (converted_right m c)) (Vp_main_v2 m c) r k).trans ?_
  rw [Cert.KernelIdeal.Value1.final_lse_of (Vh m) c _ _ (converted_left m c) (converted_right m c) r]
  rfl

end Cert.KernelIdeal.Final

end
-- ==== Proof.RefRead.lean ====
/-
  The reference program's result is the one-pass stable softmax of the score matrix.

  Entry (r, k) of the reference's result is read operation by operation. The score matrix is the contraction
  σ r k = Σ_h a (r, h) · b (k, h). The row maximum is the fold of max from −∞ over the row's 8192 scores, then taken
  once more against −∞; it is spread along the row, subtracted from every score and exponentiated. The row sum runs
  from 0 over the 8192 exponentials and is spread along the row; the result is the quotient of the two.
-/
import proofs.«152099_j38809324487097_1_alg».proof.Proof.Gen.ReferenceIdeal.Read
import proofs.«152099_j38809324487097_1_alg».proof.Proof.Spec
import proofs.«152099_j38809324487097_1_alg».proof.Proof.LibRowMax
import proofs.«152099_j38809324487097_1_alg».proof.Proof.LibSoftmaxShift
import Idealize.ShloMosaic.Lib.ValueIdx
import Idealize.ShloMosaic.PureOps.Ideal.Laws

noncomputable section

namespace Cert.TwoPass.RefRead

open Idealize.ShloMosaic Idealize.ShloMosaic.ValueIdx
open Cert.ReferenceIdeal Cert.ReferenceIdeal.Gen Cert.ReferenceIdeal.Read

variable (x0 x1 : (⟨S8192x1024, .f32⟩ : BufTy).Contents (Elt Ideal))

/-- The contraction at (r, k) is the inner product of row r of the first argument with row k of the second. -/
theorem v0_at (r k : Fin 8192) : val_main_v0 (F := Ideal) x0 x1 (ix2 r k) = score x0 x1 r k := by
  rw [val_main_v0_apply]
  refine Finset.sum_congr rfl fun h _ => ?_
  have el : lidx_main_v0 (ix2 r k) h = ix2 r h :=
    funext fun a => Fin.ext (by match a with | ⟨0, _⟩ => rfl | ⟨1, _⟩ => rfl)
  have er : ridx_main_v0 (ix2 r k) h = ix2 k h :=
    funext fun a => Fin.ext (by match a with | ⟨0, _⟩ => rfl | ⟨1, _⟩ => rfl)
  rw [el, er]

/-- The maximum reduction at row r is the fold of max from −∞ over the row's scores. -/
theorem v1_at (r : Fin 8192) :
    val_main_v1 (F := Ideal) x0 x1 (ix1 r) = (Finset.univ : Finset (Fin 8192)).fold max ⊥ (score x0 x1 r) := by
  unfold val_main_v1
  refine (Cert.LibRowMax.host_max_last_apply (a := 8192) (c := 8192) (val_main_v0 (F := Ideal) x0 x1)
    (val_main_cst (F := Ideal)) reducesTo_S8192x8192_S8192_d1 (by decide) h_S_ r).trans ?_
  rw [val_main_cst_apply, Ideal.ofBits_def, Cert.LibSoftmaxShift.ofBits_neg_inf]
  exact Finset.fold_congr fun q _ => v0_at x0 x1 r q

/-- The row maximum as the reference takes it, at row r. -/
theorem v3_at (r : Fin 8192) : val_main_v3 (F := Ideal) x0 x1 (ix1 r) = rowTop (score x0 x1 r) := by
  rw [val_main_v3_apply, val_main_v2_apply, val_main_cst_0_apply, v1_at, Ideal.ofBits_def,
    Cert.LibSoftmaxShift.ofBits_neg_inf]
  rfl

/-- The row maximum spread along the row. -/
theorem v5_at (r k : Fin 8192) : val_main_v5 (F := Ideal) x0 x1 (ix2 r k) = rowTop (score x0 x1 r) := by
  rw [val_main_v5_apply, val_main_v4_apply]
  have e : idx_main_v4 (idx_main_v5 (ix2 r k)) = ix1 r :=
    funext fun a => Fin.ext (by match a with | ⟨0, _⟩ => rfl)
  rw [e, v3_at]

/-- The exponential of a score less its row's maximum. -/
theorem v7_at (r k : Fin 8192) :
    val_main_v7 (F := Ideal) x0 x1 (ix2 r k) = Ideal.exp (score x0 x1 r k - rowTop (score x0 x1 r)) := by
  rw [val_main_v7_apply, val_main_v6_apply, v0_at, v5_at]
  rfl

/-- The row sum of the exponentials, from zero. -/
theorem v8_at (r : Fin 8192) :
    val_main_v8 (F := Ideal) x0 x1 (ix1 r)
      = 0 + ∑ k' : Fin 8192, Ideal.exp (score x0 x1 r k' - rowTop (score x0 x1 r)) := by
  rw [val_main_v8_apply, val_main_cst_1_apply, Ideal.ofBits_def, Ideal.ofBits_zero_f32]
  refine congrArg (0 + ·) (Finset.sum_congr rfl fun k' _ => ?_)
  have e : idx_main_v8 (ix1 r) k' = ix2 r k' :=
    funext fun a => Fin.ext (by match a with | ⟨0, _⟩ => rfl | ⟨1, _⟩ => rfl)
  rw [e, v7_at]

/-- The row sum spread along the row. -/
theorem v10_at (r k : Fin 8192) :
    val_main_v10 (F := Ideal) x0 x1 (ix2 r k)
      = 0 + ∑ k' : Fin 8192, Ideal.exp (score x0 x1 r k' - rowTop (score x0 x1 r)) := by
  rw [val_main_v10_apply, val_main_v9_apply]
  have e : idx_main_v9 (idx_main_v10 (ix2 r k)) = ix1 r :=
    funext fun a => Fin.ext (by match a with | ⟨0, _⟩ => rfl)
  rw [e, v8_at]

/-- Entry (r, k) of the reference's result is the one-pass softmax of row r of the scores at column k. -/
theorem reference_at (r k : Fin 8192) :
    val_main_v11 (F := Ideal) x0 x1 (ix2 r k) = onePass (score x0 x1 r) k := by
  rw [val_main_v11_apply, v7_at, v10_at]
  rfl

/-- The reference's result, as a function of the two argument arrays, is the one-pass softmax of their scores. -/
theorem reference_is_onePass :
    val_main_v11 (F := Ideal) x0 x1 = Cert.TwoPass.referenceOut x0 x1 := by
  funext i
  rw [eq_ix2 i]
  exact reference_at x0 x1 _ _

end Cert.TwoPass.RefRead

end
-- ==== Proof.LibFiniteEntry.lean ====
/-
  An extended real whose absolute value is below the float +infinity is a real number.

  A "every input is finite" precondition compares |v| = max(v, -v) with the f32 word 0x7F800000, which denotes
  +infinity. On the extended reals |v| < +inf fails exactly at v = +inf and at v = -inf (whose absolute value is
  +inf), so it holds exactly of the real numbers.
-/
import Idealize.ShloMosaic.PureOps.Ideal

noncomputable section

namespace Cert.FiniteEntry

open Idealize.ShloMosaic

/-- The f32 word 0x7F800000 is +infinity. -/
theorem ofBits_pos_inf : Ideal.ofBits .f32 0x7F800000#32 = ⊤ := by simp [Ideal.ofBits, Ideal.ieee]

/-- An extended real whose absolute value max(v, -v) is below the float +infinity is a real number. -/
theorem real_of_abs_lt {v : EReal}
    (h : Ideal.cmp .olt (max v (-v)) (Ideal.ofBits .f32 0x7F800000#32) = 1#1) : ∃ r : ℝ, v = r := by
  rw [ofBits_pos_inf] at h
  induction v using EReal.rec with
  | bot => simp [Ideal.cmp] at h
  | coe r => exact ⟨r, rfl⟩
  | top => simp [Ideal.cmp] at h

end Cert.FiniteEntry

end
-- ==== Proof.Finite.lean ====
/-
  The precondition "every input entry is finite", read back.

  The printed predicate compares, entry by entry, the absolute value |v| = max(v, -v) of each argument with +infinity,
  takes the conjunction over all entries of each argument, and then the conjunction of the two results. If the
  predicate holds then each of the two conjunctions holds, hence each entry comparison holds, and an extended real
  whose absolute value is below +infinity is a real number.
-/
import proofs.«152099_j38809324487097_1_alg».proof.Pre_finite_inputs
import proofs.«152099_j38809324487097_1_alg».proof.Proof.LibFiniteEntry
import Idealize.ShloMosaic.Lib.ReduceAll
import Idealize.ShloMosaic.Lib.ValueIdx

noncomputable section

namespace Cert.TwoPass.Finite

open Idealize.ShloMosaic Idealize.ShloMosaic.ValueIdx

/-- The scalar shape has exactly one index. -/
instance : Subsingleton Cert.Pre_finite_inputs.S_.Idx := ⟨fun a b => funext fun d => d.elim0⟩

/-- If the finiteness predicate holds of the two arguments, every entry of each is a real number. -/
theorem real_of_pre [Cert.Pre_finite_inputs.Facts] (x y : FVec Ideal Cert.Pre_finite_inputs.S8192x1024 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  obtain ⟨hx, hy⟩ := IntOp.andi_eq_one.1 h0
  refine ⟨fun i => ?_, fun i => ?_⟩
  · exact Cert.FiniteEntry.real_of_abs_lt (Host.reduce_andi_all _ _ _ _ _ hx i)
  · exact Cert.FiniteEntry.real_of_abs_lt (Host.reduce_andi_all _ _ _ _ _ hy i)

end Cert.TwoPass.Finite

end
-- ==== Proof.Algebra.lean ====
/-
  The algebra of the two-pass softmax on a row of real scores.

  Pass one meets the row tile after tile and keeps a running maximum m and a running sum l. On real scores,
  after at least one tile, m is the (real) largest score met so far and l is the real number
      Σ exp (score − m)      over the scores met so far:
  meeting one more tile whose largest entry is t moves the maximum to m' = max m t, and
      exp (m − m') · Σ exp (score − m) + Σ_tile exp (x − m') = Σ exp (score − m')
  because exp (m − m') · exp (s − m) = exp (s − m'). The first tile starts from (−∞, 0): the old sum is 0, so
  whatever exp (−∞ − m') is, its product with 0 is 0, and the new sum is the tile's own.
  After the eighth tile the maximum is the row's maximum M, which is also what the reference takes (a fold of max
  from −∞ over all 8192 scores: both are the least upper bound of the same finite set of reals, and it is attained),
  and l = Σ_k exp (σ k − M) > 0, a sum over all columns regrouped by tile. Finally, for reals with l > 0,
      exp (x − (M + log l)) = exp (x − M) / l.
-/
import proofs.«152099_j38809324487097_1_alg».proof.Proof.Spec
import Mathlib.Analysis.SpecialFunctions.Log.Basic
import Mathlib.Data.Fintype.BigOperators
import Mathlib.Algebra.BigOperators.Fin
import Mathlib.Logic.Equiv.Fin.Basic

noncomputable section

namespace Cert.TwoPass

open Idealize.ShloMosaic

/-! ### Reals inside the extended reals -/

/-- The embedding of the reals in the extended reals carries a finite sum to the sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The embedding of the reals in the extended reals carries a maximum to the maximum. -/
theorem coe_max (a b : ℝ) : max ((a : ℝ) : EReal) ((b : ℝ) : EReal) = ((max a b : ℝ) : EReal) :=
  (EReal.coe_strictMono.monotone.map_max).symm

/-- The exponential of a difference of two reals, read on the extended reals, is the real exponential. -/
theorem exp_coe_sub_coe (a b : ℝ) :
    Ideal.exp (((a : ℝ) : EReal) - ((b : ℝ) : EReal)) = ((Real.exp (a - b) : ℝ) : EReal) := by
  rw [← EReal.coe_sub, Ideal.exp_coe]

/-! ### One tile -/

/-- The largest entry of a nonempty tile of reals, taken from −∞, is a real: one of the entries, above all of them. -/
theorem tileMax_coe {C : Nat} (hC : 0 < C) (x : Fin C → ℝ) :
    ∃ t : ℝ, tileMax (fun q => ((x q : ℝ) : EReal)) = ((t : ℝ) : EReal) ∧ (∀ q, x q ≤ t) ∧ ∃ q, x q = t := by
  obtain ⟨q₀, -, hq₀⟩ :=
    Finset.exists_max_image (Finset.univ : Finset (Fin C)) x ⟨⟨0, hC⟩, Finset.mem_univ _⟩
  refine ⟨x q₀, le_antisymm ?_ ?_, fun q => hq₀ q (Finset.mem_univ _), q₀, rfl⟩
  · exact (Finset.fold_max_le _).2 ⟨bot_le, fun q _ => EReal.coe_le_coe (hq₀ q (Finset.mem_univ _))⟩
  · exact (Finset.le_fold_max _).2 (Or.inr ⟨q₀, Finset.mem_univ _, le_rfl⟩)

/-- The first tile, met from (−∞, 0): the maximum becomes the tile's, the sum the tile's own sum of exponentials. -/
theorem step_bot {C : Nat} (x : Fin C → ℝ) (t : ℝ)
    (ht : tileMax (fun q => ((x q : ℝ) : EReal)) = ((t : ℝ) : EReal)) :
    mNext ⊥ (fun q => ((x q : ℝ) : EReal)) = ((t : ℝ) : EReal) ∧
      lNext ⊥ 0 (fun q => ((x q : ℝ) : EReal)) = ((∑ q, Real.exp (x q - t) : ℝ) : EReal) := by
  have hm : mNext ⊥ (fun q => ((x q : ℝ) : EReal)) = ((t : ℝ) : EReal) := by
    rw [mNext, ht]; exact max_eq_right bot_le
  refine ⟨hm, ?_⟩
  rw [lNext, hm, mul_zero, zero_add, coe_sum]
  exact Finset.sum_congr rfl fun q _ => exp_coe_sub_coe (x q) t

/-- A later tile, met from a real pair (M, L): the maximum becomes max M t, the sum is rescaled and extended, all
    of it inside the reals. -/
theorem step_coe {C : Nat} (M L : ℝ) (x : Fin C → ℝ) (t : ℝ)
    (ht : tileMax (fun q => ((x q : ℝ) : EReal)) = ((t : ℝ) : EReal)) :
    mNext ((M : ℝ) : EReal) (fun q => ((x q : ℝ) : EReal)) = ((max M t : ℝ) : EReal) ∧
      lNext ((M : ℝ) : EReal) ((L : ℝ) : EReal) (fun q => ((x q : ℝ) : EReal)) =
        ((Real.exp (M - max M t) * L + ∑ q, Real.exp (x q - max M t) : ℝ) : EReal) := by
  have hm : mNext ((M : ℝ) : EReal) (fun q => ((x q : ℝ) : EReal)) = ((max M t : ℝ) : EReal) := by
    rw [mNext, ht, coe_max]
  refine ⟨hm, ?_⟩
  rw [lNext, hm, EReal.coe_add, EReal.coe_mul, coe_sum, exp_coe_sub_coe]
  exact congrArg (_ + ·) (Finset.sum_congr rfl fun q _ => exp_coe_sub_coe (x q) (max M t))

/-- Moving the reference point of a sum of exponentials from M to M' and adding one more tile. -/
theorem rescale_sum {C : Nat} (x : Nat → Fin C → ℝ) (n : Nat) (M M' : ℝ) :
    Real.exp (M - M') * (∑ j ∈ Finset.range n, ∑ q, Real.exp (x j q - M)) + ∑ q, Real.exp (x n q - M')
      = ∑ j ∈ Finset.range (n + 1), ∑ q, Real.exp (x j q - M') := by
  rw [Finset.sum_range_succ, Finset.mul_sum]
  congr 1
  refine Finset.sum_congr rfl fun j _ => ?_
  rw [Finset.mul_sum]
  refine Finset.sum_congr rfl fun q _ => ?_
  rw [← Real.exp_add]
  congr 1
  ring

/-! ### The running pair after n + 1 tiles -/

/-- After n + 1 nonempty tiles of reals the running maximum is a real M, the largest of the scores met (above all
    of them, and one of them), and the running sum is the real Σ exp (score − M) over the scores met. -/
theorem acc_succ_coe {C : Nat} (hC : 0 < C) (x : Nat → Fin C → ℝ) (n : Nat) :
    ∃ M : ℝ, (acc (fun j q => ((x j q : ℝ) : EReal)) (n + 1)).1 = ((M : ℝ) : EReal) ∧
      (acc (fun j q => ((x j q : ℝ) : EReal)) (n + 1)).2 =
        ((∑ j ∈ Finset.range (n + 1), ∑ q, Real.exp (x j q - M) : ℝ) : EReal) ∧
      (∀ j, j < n + 1 → ∀ q, x j q ≤ M) ∧ ∃ j, j < n + 1 ∧ ∃ q, x j q = M := by
  induction n with
  | zero =>
    obtain ⟨t, ht, hle, q₀, hq₀⟩ := tileMax_coe hC (x 0)
    obtain ⟨hm, hl⟩ := step_bot (x 0) t ht
    refine ⟨t, hm, ?_, ?_, 0, Nat.zero_lt_one, q₀, hq₀⟩
    · rw [Finset.sum_range_one]; exact hl
    · intro j hj q
      obtain rfl : j = 0 := by omega
      exact hle q
  | succ n ih =>
    obtain ⟨M, hM, hL, hub, j₀, hj₀, q₀, hq₀⟩ := ih
    obtain ⟨t, ht, hle, q₁, hq₁⟩ := tileMax_coe hC (x (n + 1))
    obtain ⟨hm, hl⟩ :=
      step_coe M (∑ j ∈ Finset.range (n + 1), ∑ q, Real.exp (x j q - M)) (x (n + 1)) t ht
    refine ⟨max M t, ?_, ?_, ?_, ?_⟩
    · rw [acc_succ]
      show mNext (acc (fun j q => ((x j q : ℝ) : EReal)) (n + 1)).1 _ = _
      rw [hM]; exact hm
    · rw [acc_succ]
      show lNext (acc (fun j q => ((x j q : ℝ) : EReal)) (n + 1)).1
        (acc (fun j q => ((x j q : ℝ) : EReal)) (n + 1)).2 _ = _
      rw [hM, hL, ← rescale_sum x (n + 1) M (max M t)]; exact hl
    · intro j hj q
      rcases Nat.lt_succ_iff_lt_or_eq.1 hj with h | rfl
      · exact le_trans (hub j h q) (le_max_left _ _)
      · exact le_trans (hle q) (le_max_right _ _)
    · rcases le_total M t with h | h
      · exact ⟨n + 1, Nat.lt_succ_self _, q₁, by rw [hq₁, max_eq_right h]⟩
      · exact ⟨j₀, Nat.lt_succ_of_lt hj₀, q₀, by rw [hq₀, max_eq_left h]⟩

/-! ### The row of 8192 scores in 8 tiles of 1024 -/

/-- The tiles of a row of real scores, as reals. -/
def realTiles (σ : Fin 8192 → ℝ) (j : Nat) (q : Fin 1024) : ℝ :=
  if h : j < 8 then σ ⟨1024 * j + q.val, by have := q.isLt; omega⟩ else 0

/-- The tiles of a row of real scores are the embedded real tiles. -/
theorem tiles_coe (σ : Fin 8192 → ℝ) :
    tiles (fun k => ((σ k : ℝ) : EReal)) = fun j q => ((realTiles σ j q : ℝ) : EReal) := by
  funext j q
  unfold tiles realTiles
  split_ifs <;> rfl

/-- Column k sits in tile k / 1024 at place k % 1024. -/
theorem realTiles_div_mod (σ : Fin 8192 → ℝ) (k : Fin 8192) :
    realTiles σ (k.val / 1024) ⟨k.val % 1024, Nat.mod_lt _ (by norm_num)⟩ = σ k := by
  have hk := k.isLt
  unfold realTiles
  rw [dif_pos (by omega)]
  exact congrArg σ (Fin.ext (Nat.div_add_mod _ _))

/-- A sum over the 8 tiles and their 1024 places is the sum over the 8192 columns. -/
theorem sum_realTiles (σ : Fin 8192 → ℝ) (g : ℝ → ℝ) :
    ∑ j ∈ Finset.range 8, ∑ q : Fin 1024, g (realTiles σ j q) = ∑ k : Fin 8192, g (σ k) := by
  rw [Finset.sum_range, ← Fintype.sum_prod_type' (fun (i : Fin 8) (q : Fin 1024) => g (realTiles σ i.val q))]
  refine Fintype.sum_equiv finProdFinEquiv _ _ fun p => ?_
  unfold realTiles
  rw [dif_pos p.1.isLt]
  refine congrArg g (congrArg σ (Fin.ext ?_))
  show 1024 * p.1.val + p.2.val = p.2.val + 1024 * p.1.val
  omega

/-- A real above every entry of the 8 tiles, and one of them, is the row's maximum as the reference takes it. -/
theorem rowTop_coe (σ : Fin 8192 → ℝ) (M : ℝ) (hub : ∀ j, j < 8 → ∀ q, realTiles σ j q ≤ M)
    (hatt : ∃ j, j < 8 ∧ ∃ q, realTiles σ j q = M) :
    rowTop (fun k => ((σ k : ℝ) : EReal)) = ((M : ℝ) : EReal) := by
  rw [rowTop, max_eq_right bot_le]
  refine le_antisymm ((Finset.fold_max_le _).2 ⟨bot_le, fun k _ => ?_⟩) ?_
  · have hk := k.isLt
    have h := hub (k.val / 1024) (by omega) ⟨k.val % 1024, Nat.mod_lt _ (by norm_num)⟩
    rw [realTiles_div_mod] at h
    exact EReal.coe_le_coe h
  · obtain ⟨j, hj, q, hq⟩ := hatt
    unfold realTiles at hq
    rw [dif_pos hj] at hq
    exact (Finset.le_fold_max _).2 (Or.inr ⟨_, Finset.mem_univ _, le_of_eq (congrArg Real.toEReal hq.symm)⟩)

/-- After the eighth tile of a row of real scores: the running maximum is the real M that the reference also takes,
    and the running sum is the positive real Σ_k exp (σ k − M). -/
theorem acc_tiles_eight (σ : Fin 8192 → ℝ) :
    ∃ M : ℝ, (acc (tiles (fun k => ((σ k : ℝ) : EReal))) 8).1 = ((M : ℝ) : EReal) ∧
      (acc (tiles (fun k => ((σ k : ℝ) : EReal))) 8).2 = ((∑ k, Real.exp (σ k - M) : ℝ) : EReal) ∧
      rowTop (fun k => ((σ k : ℝ) : EReal)) = ((M : ℝ) : EReal) ∧ 0 < ∑ k, Real.exp (σ k - M) := by
  obtain ⟨M, hM, hL, hub, hatt⟩ := acc_succ_coe (C := 1024) (by norm_num) (realTiles σ) 7
  refine ⟨M, ?_, ?_, rowTop_coe σ M hub hatt,
    Finset.sum_pos (fun k _ => Real.exp_pos _) ⟨⟨0, by norm_num⟩, Finset.mem_univ _⟩⟩
  · rw [tiles_coe]; exact hM
  · rw [tiles_coe, ← sum_realTiles σ (fun s => Real.exp (s - M))]; exact hL

/-- After pass one the running maximum of a row of real scores is a real. -/
theorem acc_tiles_eight_fst_real (σ : Fin 8192 → ℝ) :
    ∃ M : ℝ, (acc (tiles (fun k => ((σ k : ℝ) : EReal))) 8).1 = ((M : ℝ) : EReal) := by
  obtain ⟨M, hM, -⟩ := acc_tiles_eight σ
  exact ⟨M, hM⟩

/-- After pass one the running sum of a row of real scores is a positive real. -/
theorem acc_tiles_eight_snd_pos (σ : Fin 8192 → ℝ) :
    ∃ L : ℝ, 0 < L ∧ (acc (tiles (fun k => ((σ k : ℝ) : EReal))) 8).2 = ((L : ℝ) : EReal) := by
  obtain ⟨M, -, hL, -, hpos⟩ := acc_tiles_eight σ
  exact ⟨_, hpos, hL⟩

/-! ### The two passes against the one -/

/-- On a row of real scores the two-pass result is the reference's stable softmax. -/
theorem twoPass_eq_onePass (σ : Fin 8192 → ℝ) (k : Fin 8192) :
    twoPass (fun k' => ((σ k' : ℝ) : EReal)) k = onePass (fun k' => ((σ k' : ℝ) : EReal)) k := by
  obtain ⟨M, hM, hL, hTop, hpos⟩ := acc_tiles_eight σ
  have hlse : lse (tiles (fun k' => ((σ k' : ℝ) : EReal))) 8
      = ((M + Real.log (∑ k', Real.exp (σ k' - M)) : ℝ) : EReal) := by
    rw [lse, hM, hL, Ideal.log_coe, if_neg (not_le.2 hpos), EReal.coe_add]
  have hsum : (0 : EReal) + ∑ k', Ideal.exp (((σ k' : ℝ) : EReal) - ((M : ℝ) : EReal))
      = ((∑ k', Real.exp (σ k' - M) : ℝ) : EReal) := by
    rw [zero_add, coe_sum]
    exact Finset.sum_congr rfl fun k' _ => exp_coe_sub_coe (σ k') M
  rw [twoPass, onePass, hlse, hTop]
  show Ideal.exp (((σ k : ℝ) : EReal) - _) = Ideal.div (Ideal.exp (((σ k : ℝ) : EReal) - _))
    ((0 : EReal) + ∑ k', Ideal.exp (((σ k' : ℝ) : EReal) - ((M : ℝ) : EReal)))
  rw [hsum, Ideal.div_coe hpos.ne', exp_coe_sub_coe, exp_coe_sub_coe, ← EReal.coe_mul]
  refine congrArg Real.toEReal ?_
  rw [← sub_sub, Real.exp_sub, Real.exp_log hpos, one_div, div_eq_mul_inv]

end Cert.TwoPass

end
-- ==== Proof.Bridge.lean ====
/-
  From rows of real scores to the two arrays.

  When every entry of the two argument arrays is a real, every score (an inner product of a row of the first with a
  row of the second: a finite sum of products of reals) is a real, so each row of scores is a row of reals, and on
  such a row the two-pass result and the reference's stable softmax agree, column by column.
-/
import proofs.«152099_j38809324487097_1_alg».proof.Proof.Spec
import proofs.«152099_j38809324487097_1_alg».proof.Proof.Algebra
import Idealize.ShloMosaic.Lib.ValueIdx

noncomputable section

namespace Cert.TwoPass

open Idealize.ShloMosaic Idealize.ShloMosaic.ValueIdx

/-- The scores of a row of the first array against the rows of the second, both arrays of reals, are the reals
    Σ_h a(r, h) · b(k', h). -/
theorem score_coe (a b : FVec Ideal ⟨2, ![8192, 1024]⟩ .f32)
    (ra rb : (⟨2, ![8192, 1024]⟩ : Shape).Idx → ℝ)
    (hra : ∀ i, a i = ((ra i : ℝ) : EReal)) (hrb : ∀ i, b i = ((rb i : ℝ) : EReal)) (r : Fin 8192) :
    score a b r = fun k' => ((∑ h : Fin 1024, ra (ix2 r h) * rb (ix2 k' h) : ℝ) : EReal) := by
  funext k'
  rw [score, coe_sum]
  exact Finset.sum_congr rfl fun h _ => by rw [hra, hrb, EReal.coe_mul]

/-- On arrays of reals the kernel's result, as a function of the two arrays, is the reference's. -/
theorem kernelOut_eq_referenceOut (a b : FVec Ideal ⟨2, ![8192, 1024]⟩ .f32)
    (ha : ∀ i, ∃ r : ℝ, a i = (r : EReal)) (hb : ∀ i, ∃ r : ℝ, b i = (r : EReal)) :
    kernelOut a b = referenceOut a b := by
  choose ra hra using ha
  choose rb hrb using hb
  funext idx
  obtain ⟨r, k, rfl⟩ : ∃ r k, idx = ix2 r k := ⟨_, _, eq_ix2 idx⟩
  rw [kernelOut_apply, referenceOut_apply, score_coe a b ra rb hra hrb r]
  exact twoPass_eq_onePass _ k

end Cert.TwoPass

end
-- ==== Proof.lean ====
/-
  The two-pass softmax against the one-pass reference, over the extended reals.

  Both programs form the 8192 × 8192 scores s = a · bᵀ of two real matrices (the kernel after a change of format that is
  the identity on extended reals). The reference writes exp (s − M) / Σ exp (s − M) row by row, M the row's maximum. The
  kernel visits each row in eight column tiles, keeping the running maximum m and the running sum l of exponentials taken
  relative to m, rescaling l whenever m grows; it records m + log l and, in a second pass, writes exp (s − (m + log l)).
  For real scores l is the reference's denominator and m its maximum, and exp (x − m − log l) = exp (x − m) / l: the two
  results agree entry by entry. Finiteness of the inputs is what makes every score, every running maximum after the
  first tile and every running sum a real number; without it the rescaling exp (m − m') · l has no such reading.

  The three frames: each kernel program is two conversions followed by two pipelined regions; each region's body is run
  once per control case and the regions are composed with the conversions, the arguments being written by no item. The
  reference's frame is its run with the result dropped. The idealization rewrote nothing, so its ledger is empty.
-/
import proofs.«152099_j38809324487097_1_alg».proof.Defs
import proofs.«152099_j38809324487097_1_alg».proof.Proof.Gen.Kernel
import proofs.«152099_j38809324487097_1_alg».proof.Proof.Gen.KernelIdeal
import proofs.«152099_j38809324487097_1_alg».proof.Proof.Gen.ReferenceIdeal
import proofs.«152099_j38809324487097_1_alg».proof.Proof.Gen.ReferenceIdeal.Run
import proofs.«152099_j38809324487097_1_alg».proof.Proof.Gen.ReferenceIdeal.Read
import proofs.«152099_j38809324487097_1_alg».proof.Proof.Gen.Pre_finite_inputs
import proofs.«152099_j38809324487097_1_alg».proof.Proof.KWhole
import proofs.«152099_j38809324487097_1_alg».proof.Proof.KIWhole
import proofs.«152099_j38809324487097_1_alg».proof.Proof.KIFinal
import proofs.«152099_j38809324487097_1_alg».proof.Proof.RefRead
import proofs.«152099_j38809324487097_1_alg».proof.Proof.Finite
import proofs.«152099_j38809324487097_1_alg».proof.Proof.Bridge
import Idealize.ShloMosaic.Adequacy
import Idealize.ShloMosaic.Init

noncomputable section

namespace Cert.Proof

open Idealize.ShloMosaic Idealize.SL.Sem

/-- The word-level kernel runs to the end and leaves both arguments as launched. -/
theorem frame_kernel : Cert.frame_Kernel := fun m ρ _ =>
  (θ_run (Cert.Kernel.defs (F := Bits)) _ _).mono (fun _ h c => (h c).2) (Cert.Kernel.Whole.run_all (F := Bits) m ρ)

/-- So does the idealized kernel. -/
theorem frame_kernelIdeal : Cert.frame_KernelIdeal := fun m ρ _ =>
  (θ_run (Cert.KernelIdeal.defs (F := Ideal)) _ _).mono (fun _ h c => (h c).2) (Cert.KernelIdeal.Whole.run_all (F := Ideal) m ρ)

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the kernel's result array and the reference's are one function of the arguments: the kernel's run
    ends with the two-pass function of its arguments, the reference's with the one-pass function of arguments that agree
    with them, and on arrays of real numbers the two functions coincide. -/
theorem algebraic : Cert.algebraic_KernelIdeal_ReferenceIdeal := by
  intro m ρ m' ρ' hpre hagree
  refine ⟨fun c => Cert.TwoPass.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.KernelIdeal.Final.result_eq m c), (h c).2⟩)
      (Cert.KernelIdeal.Whole.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨ha, hb⟩ := Cert.TwoPass.Finite.real_of_pre _ _ (hpre c)
    rw [(hagree c).1, (hagree c).2]
    exact (Cert.ReferenceIdeal.Read.val_main_v11_eq _ _).trans
      ((Cert.TwoPass.RefRead.reference_is_onePass _ _).trans (Cert.TwoPass.kernelOut_eq_referenceOut _ _ ha hb).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
